-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S3x128 .f32) (main_arg6 : FVec F S128x64 .f32) (main_arg7 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S3x128x128 .f32) (main_arg5 : FVec F S3x128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S10000x128 : Shape := ⟨2, ![10000, 128]⟩
abbrev S1700000x128 : Shape := ⟨2, ![1700000, 128]⟩
abbrev S1x128x128 : Shape := ⟨3, ![1, 128, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 120
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .i32⟩
  | .hbm, ⟨16, _⟩ => ⟨S1700000, .i32⟩
  | .hbm, ⟨17, _⟩ => ⟨S_, .i32⟩
  | .hbm, ⟨18, _⟩ => ⟨S100000, .i32⟩
  | .hbm, ⟨19, _⟩ => ⟨S1700000x1, .i32⟩
  | .hbm, ⟨20, _⟩ => ⟨S100000, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S1x128, .f32⟩
  | .hbm, ⟨51, _⟩ => ⟨S100000x128, .bf16⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .bf16⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S100000x128, .bf16⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .bf16⟩
  | .hbm, ⟨83, _⟩ => ⟨S1700000x128, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128x128, .f32⟩
  | .hbm, ⟨91, _⟩ => ⟨S128x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S100000x128, .bf16⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x128, .bf16⟩
  | .hbm, ⟨105, _⟩ => ⟨S1700000x128, .f32⟩
  | .hbm, ⟨106, _⟩ => ⟨S1700000x128, .f32⟩
  | .hbm, ⟨107, _⟩ => ⟨S1700000x128, .f32⟩
  | .hbm, ⟨108, _⟩ => ⟨S_, .f32⟩
  | .hbm, ⟨109, _⟩ => ⟨S100000x128, .f32⟩
  | .hbm, ⟨110, _⟩ => ⟨S1700000x1, .i32⟩
  | .hbm, ⟨111, _⟩ => ⟨S100000x128, .f32⟩
  | .hbm, ⟨112, _⟩ => ⟨S1x128x128, .f32⟩
  | .hbm, ⟨113, _⟩ => ⟨S128x128, .f32⟩
  | .hbm, ⟨114, _⟩ => ⟨S1x128, .f32⟩
  | .hbm, ⟨115, _⟩ => ⟨S128, .f32⟩
  | .hbm, ⟨116, _⟩ => ⟨S1x128, .f32⟩
  | .hbm, ⟨117, _⟩ => ⟨S100000x128, .bf16⟩
  | .hbm, ⟨118, _⟩ => ⟨S1x64, .f32⟩
  | .hbm, ⟨119, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .bf16⟩
  | .local _ .vmem, ⟨11, _⟩ => ⟨S10000x128, .bf16⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .bf16⟩
  | .local _ .vmem, ⟨17, _⟩ => ⟨S10000x128, .bf16⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .bf16⟩
  | .local _ .vmem, ⟨23, _⟩ => ⟨S10000x128, .bf16⟩
  | .local _ .vmem, ⟨24, _⟩ => ⟨S10000x128, .bf16⟩
  | .local _ .vmem, ⟨25, _⟩ => ⟨S10000x128, .bf16⟩
  | .local _ .vmem, ⟨26, _⟩ => ⟨S128x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S10000x128_S10000x128 : S10000x128.ShapeCasts S10000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .bf16 = 32 ∨ (Rect.block (s := S100000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .bf16 = 32 ∨ (Rect.block (s := S100000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .bf16 = 32 ∨ (Rect.block (s := S100000x128) S10000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .bf16 = 32 ∨ (Rect.block (s := S100000x128) S10000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v90) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x128x128 : Shape := ⟨3, ![1, 128, 128]⟩
abbrev S1700000x128 : Shape := ⟨2, ![1700000, 128]⟩
abbrev S100000x64 : Shape := ⟨2, ![100000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S3x128x128, .f32⟩
  | 5 => ⟨S3x128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S1x128, .f32⟩
  | 85 => ⟨S128, .f32⟩
  | 86 => ⟨S100000x128, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x128, .f32⟩
  | 96 => ⟨S1700000x128, .f32⟩
  | 97 => ⟨S1700000x128, .f32⟩
  | 98 => ⟨S_, .f32⟩
  | 99 => ⟨S100000x128, .f32⟩
  | 100 => ⟨S1700000x1, .i32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S1x128x128, .f32⟩
  | 109 => ⟨S128x128, .f32⟩
  | 110 => ⟨S1x128, .f32⟩
  | 111 => ⟨S128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x64, .f32⟩
  | 7 => ⟨S1x64, .f32⟩
  | 8 => ⟨S100000x64, .f32⟩
  | 9 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call2_cst : Ref sig .tc := ⟨.hbm, 79, rfl⟩
abbrev main_call2_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_c_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call3_cst : Ref sig .tc := ⟨.hbm, 105, rfl⟩
abbrev main_call3_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_12 : Ref sig .tc := ⟨.hbm, 113, rfl⟩
abbrev main_v83 : Ref sig .tc := ⟨.hbm, 114, rfl⟩
abbrev main_v84 : Ref sig .tc := ⟨.hbm, 115, rfl⟩
abbrev main_c_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_14 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call4_cst : Ref sig .tc := ⟨.hbm, 131, rfl⟩
abbrev main_call4_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1700000x1_S1700000x128_0_1 : S1700000x1.BroadcastsInDim S1700000x128 (![0, 1] : Fin 2 → Fin S1700000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its RESULT named. The program is five matrix-product regions among stretches of host
  operations; its run is the chain of those segments from the launch memory, and every buffer the program does not
  scope ends at the contents the chain of segment boundaries gives it. Read at the result buffer this says: every
  weakly fair execution terminates, nothing faults, the result array is the last boundary's contents at the result
  buffer, and the eight argument arrays are as launched.
-/
import proofs.«131948_j10531259810641_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    segment boundary's contents, and the argument arrays are unchanged. -/
theorem run_result : θ_run defs (onTc (τ := τ) (main (F := F))) ⟨m, fun _ => 0, ρ⟩ (fun r => ∀ c : Dev nD,
      r.2.mem ((c.tc : Thread nD τ).loc main_v92) = W12 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v92 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Result

end
-- ==== Proof.MatmulBody.lean ====
/-
  What one matrix-product region computes at one entry of its output block. The body loads a block `x` of rows, the
  whole weight matrix `w` and the bias row `b`, and stores `max(x·w + b, 0)` (the last region: `x·w + b`); the
  changes of float format on the way are the identity on extended reals, and the product into a zero accumulator is
  the plain sum over the contracted axis. So entry `(p, c)` of the stored block is
  `max(∑ q, x[p, q]·w[q, c] + b[0, c], 0)`.
-/
import proofs.«131948_j10531259810641_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.SL.Sem

theorem mxu128_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mxu128_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix unit's product into a zero accumulator, read at `(p, c)`: the sum over the contracted axis. -/
theorem mxu128_apply {φ₁ φ₂ : FTy} (a : FVec Ideal S10000x128 φ₁) (b : FVec Ideal S128x128 φ₂) (p : Fin 10000) (c : Fin 128) :
    FloatOps.matmul dot_S10000x128_S128x128_S10000x128_1_0_0_1_n_n none a b (constant S10000x128 .f32 0x00000000#32) (ix2 p c) = ∑ q : Fin 128, a (ix2 p q) * b (ix2 q c) := by
  refine (Ideal.matmul_constant_zero_apply dot_S10000x128_S128x128_S10000x128_1_0_0_1_n_n none a b (ix2 p c)).trans ?_
  rw [← Equiv.sum_comp (contrEquiv1 dot_S10000x128_S128x128_S10000x128_1_0_0_1_n_n 128 rfl rfl).symm]
  refine Finset.sum_congr rfl fun q _ => ?_
  have hq := contrEquiv1_symm_val dot_S10000x128_S128x128_S10000x128_1_0_0_1_n_n 128 rfl rfl q
  have el : dot_S10000x128_S128x128_S10000x128_1_0_0_1_n_n.lhsIdx (ix2 p c) ((contrEquiv1 dot_S10000x128_S128x128_S10000x128_1_0_0_1_n_n 128 rfl rfl).symm q) = ix2 p q := funext fun ax => Fin.ext (by
    match ax with
    | ⟨0, _⟩ => exact mxu128_lhs0 _ _
    | ⟨1, _⟩ => exact (dot_S10000x128_S128x128_S10000x128_1_0_0_1_n_n.lhsIdx_val_of_single rfl _ _).trans hq)
  have er : dot_S10000x128_S128x128_S10000x128_1_0_0_1_n_n.rhsIdx (ix2 p c) ((contrEquiv1 dot_S10000x128_S128x128_S10000x128_1_0_0_1_n_n 128 rfl rfl).symm q) = ix2 q c := funext fun ax => Fin.ext (by
    match ax with
    | ⟨0, _⟩ => exact (dot_S10000x128_S128x128_S10000x128_1_0_0_1_n_n.rhsIdx_val_of_single rfl _ _).trans hq
    | ⟨1, _⟩ => exact mxu128_rhs1 _ _)
  rw [el, er]

theorem mxu64_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mxu64_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The matrix unit's product into a zero accumulator, read at `(p, c)`: the sum over the contracted axis. -/
theorem mxu64_apply {φ₁ φ₂ : FTy} (a : FVec Ideal S10000x128 φ₁) (b : FVec Ideal S128x64 φ₂) (p : Fin 10000) (c : Fin 64) :
    FloatOps.matmul dot_S10000x128_S128x64_S10000x64_1_0_0_1_n_n none a b (constant S10000x64 .f32 0x00000000#32) (ix2 p c) = ∑ q : Fin 128, a (ix2 p q) * b (ix2 q c) := by
  refine (Ideal.matmul_constant_zero_apply dot_S10000x128_S128x64_S10000x64_1_0_0_1_n_n none a b (ix2 p c)).trans ?_
  rw [← Equiv.sum_comp (contrEquiv1 dot_S10000x128_S128x64_S10000x64_1_0_0_1_n_n 128 rfl rfl).symm]
  refine Finset.sum_congr rfl fun q _ => ?_
  have hq := contrEquiv1_symm_val dot_S10000x128_S128x64_S10000x64_1_0_0_1_n_n 128 rfl rfl q
  have el : dot_S10000x128_S128x64_S10000x64_1_0_0_1_n_n.lhsIdx (ix2 p c) ((contrEquiv1 dot_S10000x128_S128x64_S10000x64_1_0_0_1_n_n 128 rfl rfl).symm q) = ix2 p q := funext fun ax => Fin.ext (by
    match ax with
    | ⟨0, _⟩ => exact mxu64_lhs0 _ _
    | ⟨1, _⟩ => exact (dot_S10000x128_S128x64_S10000x64_1_0_0_1_n_n.lhsIdx_val_of_single rfl _ _).trans hq)
  have er : dot_S10000x128_S128x64_S10000x64_1_0_0_1_n_n.rhsIdx (ix2 p c) ((contrEquiv1 dot_S10000x128_S128x64_S10000x64_1_0_0_1_n_n 128 rfl rfl).symm q) = ix2 q c := funext fun ax => Fin.ext (by
    match ax with
    | ⟨0, _⟩ => exact (dot_S10000x128_S128x64_S10000x64_1_0_0_1_n_n.rhsIdx_val_of_single rfl _ _).trans hq
    | ⟨1, _⟩ => exact mxu64_rhs1 _ _)
  rw [el, er]

/-- The bias row, cast to its own shape and broadcast over the block's rows, read at `(p, c)`. -/
theorem bias128_apply (b : FVec Ideal S1x128 .f32) (h1 : S1x128.ShapeCasts S1x128) (h2 : S1x128.Broadcasts S10000x128) (p : Fin 10000) (c : Fin 128) :
    broadcastTo S10000x128 (shapeCast S1x128 b h1) h2 (ix2 p c) = b (ix2 (0 : Fin 1) c) := by
  rw [shapeCast_self]
  exact broadcastTo_1b_ab_apply b h2 p c
theorem bias64_apply (b : FVec Ideal S1x64 .f32) (h1 : S1x64.ShapeCasts S1x64) (h2 : S1x64.Broadcasts S10000x64) (p : Fin 10000) (c : Fin 64) :
    broadcastTo S10000x64 (shapeCast S1x64 b h1) h2 (ix2 p c) = b (ix2 (0 : Fin 1) c) := by
  rw [shapeCast_self]
  exact broadcastTo_1b_ab_apply b h2 p c

/-- Region 0's stored block at `(p, c)`. -/
theorem pay0_apply (x : Vec Ideal S10000x128 .f32) (w : Vec Ideal S128x128 .f32) (b : Vec Ideal S1x128 .f32) (p : Fin 10000) (c : Fin 128) :
    k0_pay1 (F := Ideal) x w b (ix2 p c)
      = max ((∑ q : Fin 128, x (ix2 p q) * w (ix2 q c)) + b (ix2 (0 : Fin 1) c)) (Ideal.ofBits .f32 0x00000000#32) := by
  unfold k0_pay1
  exact congrArg₂ max (congrArg₂ (· + ·) (mxu128_apply _ _ p c) (bias128_apply b _ _ p c)) rfl

/-- Region 1's stored block at `(p, c)`. -/
theorem pay1_apply (x : Vec Ideal S10000x128 .f32) (w : Vec Ideal S128x128 .f32) (b : Vec Ideal S1x128 .f32) (p : Fin 10000) (c : Fin 128) :
    k1_pay1 (F := Ideal) x w b (ix2 p c)
      = max ((∑ q : Fin 128, x (ix2 p q) * w (ix2 q c)) + b (ix2 (0 : Fin 1) c)) (Ideal.ofBits .f32 0x00000000#32) := by
  unfold k1_pay1
  simp only [shapeCast_self]
  exact congrArg₂ max (congrArg₂ (· + ·) (mxu128_apply _ _ p c) (broadcastTo_1b_ab_apply b _ p c)) rfl

/-- Region 2's stored block at `(p, c)`. -/
theorem pay2_apply (x : Vec Ideal S10000x128 .f32) (w : Vec Ideal S128x128 .f32) (b : Vec Ideal S1x128 .f32) (p : Fin 10000) (c : Fin 128) :
    k2_pay1 (F := Ideal) x w b (ix2 p c)
      = max ((∑ q : Fin 128, x (ix2 p q) * w (ix2 q c)) + b (ix2 (0 : Fin 1) c)) (Ideal.ofBits .f32 0x00000000#32) := by
  unfold k2_pay1
  simp only [shapeCast_self]
  exact congrArg₂ max (congrArg₂ (· + ·) (mxu128_apply _ _ p c) (broadcastTo_1b_ab_apply b _ p c)) rfl

/-- Region 3's stored block at `(p, c)`. -/
theorem pay3_apply (x : Vec Ideal S10000x128 .f32) (w : Vec Ideal S128x128 .f32) (b : Vec Ideal S1x128 .f32) (p : Fin 10000) (c : Fin 128) :
    k3_pay1 (F := Ideal) x w b (ix2 p c)
      = max ((∑ q : Fin 128, x (ix2 p q) * w (ix2 q c)) + b (ix2 (0 : Fin 1) c)) (Ideal.ofBits .f32 0x00000000#32) := by
  unfold k3_pay1
  simp only [shapeCast_self]
  exact congrArg₂ max (congrArg₂ (· + ·) (mxu128_apply _ _ p c) (broadcastTo_1b_ab_apply b _ p c)) rfl

/-- The last region's stored block at `(p, c)`: no rectifier. -/
theorem pay4_apply (x : Vec Ideal S10000x128 .bf16) (w : Vec Ideal S128x64 .f32) (b : Vec Ideal S1x64 .f32) (p : Fin 10000) (c : Fin 64) :
    k4_pay1 (F := Ideal) x w b (ix2 p c)
      = (∑ q : Fin 128, x (ix2 p q) * w (ix2 q c)) + b (ix2 (0 : Fin 1) c) := by
  unfold k4_pay1
  simp only [shapeCast_self]
  exact congrArg₂ (· + ·) (mxu64_apply _ _ p c) (broadcastTo_1b_ab_apply b _ p c)

end Cert.KernelIdeal.Body

end
-- ==== Proof.Spec.lean ====
/-
  The mathematics of graph-convolution message passing over the extended reals, stated once for both programs.

  Nodes carry feature rows. One layer gathers, for every edge `e`, the row of the edge's source node, scales it by
  the edge's normalisation weight and adds it into the row of the edge's target node; a dense map `X ↦ X·W` acts on
  the feature axis only. The two programs apply these in opposite orders; over real entries the orders agree
  (sums and products commute and distribute), which is what the modules importing this one prove.
-/
import Idealize.ShloMosaic.PureOps.Ideal
import Idealize.ShloMosaic.Lib.ValueIdx

noncomputable section

open scoped BigOperators

namespace Cert.Gcn

open Idealize.ShloMosaic Idealize.ShloMosaic.ValueIdx

/-- An extended real that is a real number (neither infinity). -/
def IsReal (x : EReal) : Prop := ∃ r : ℝ, x = (r : EReal)

/-- Every entry of a family of extended reals is a real number. -/
def AllReal {ι : Type} (v : ι → EReal) : Prop := ∀ i, IsReal (v i)

/-- A matrix of extended reals, indexed as the printed rank-2 arrays are. -/
abbrev Mat (n k : Nat) : Type := (⟨2, ![n, k]⟩ : Shape).Idx → EReal

/-- The row coordinate of a rank-2 index, at its literal extent. -/
abbrev row {n k : Nat} (i : (⟨2, ![n, k]⟩ : Shape).Idx) : Fin n := ⟨(i 0).val, idx2_lt0 i⟩
/-- The column coordinate of a rank-2 index, at its literal extent. -/
abbrev col {n k : Nat} (i : (⟨2, ![n, k]⟩ : Shape).Idx) : Fin k := ⟨(i 1).val, idx2_lt1 i⟩

/-- The matrix product `X·W`: entry `(r, c)` is `∑ q, X[r, q] · W[q, c]`. -/
def mm {n k o : Nat} (X : Mat n k) (W : Mat k o) : Mat n o :=
  fun i => ∑ q : Fin k, X (ix2 (row i) q) * W (ix2 q (col i))

/-- The dense layer `X·W + b`, the bias a row vector `[1, o]`. -/
def dense {n k o : Nat} (X : Mat n k) (W : Mat k o) (b : Mat 1 o) : Mat n o :=
  fun i => mm X W i + b (ix2 0 (col i))

/-- `max(·, 0)` entrywise, the zero given as the word the programs print. -/
def relu {n k : Nat} (z : EReal) (X : Mat n k) : Mat n k := fun i => max (X i) z

/-- The dimension numbers of "add update row `e` into operand row `idx[e]`": operand `[N, K]`, indices `[M, 1]`,
    updates `[M, K]`; the update's feature axis is the window, the operand's row axis is the one indexed. -/
abbrev rowScatter (N M K : Nat) (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

/-- The dimension numbers of "result row `e` is operand row `idx[e]`" (clamped into the operand): operand `[N, K]`,
    indices `[M, 1]`, result `[M, K]`; whole feature rows are taken. -/
abbrev rowGather (N M K : Nat) (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- One aggregation: into a matrix of `z`s, add for every update index `j = (e, f)` the gathered entry
    `v[gather index of j]` scaled by the edge weight `nrm e`, at the entry the scatter sends `j` to. -/
def agg {N M K : Nat} (d : ScatterDims ⟨2, ![N, K]⟩ ⟨2, ![M, 1]⟩ ⟨2, ![M, K]⟩)
    (g : GatherDims ⟨2, ![N, K]⟩ ⟨2, ![M, 1]⟩ ⟨2, ![M, K]⟩) (z : EReal) (v : Mat N K)
    (ridx cidx : IVec ⟨2, ![M, 1]⟩ 32) (nrm : Fin M → EReal) : Mat N K :=
  Ideal.hostScatterAdd d (fun _ => z) cidx (fun j => v (g.operandIdx j ridx) * nrm (row j))

end Cert.Gcn

end
-- ==== Proof.Region0.lean ====
/-
  Region 0 as one function of whole arrays. The region walks ten blocks of 10000 rows; at block `t` it loads rows
  `10000·t … 10000·t + 9999` of its first operand, the whole weight matrix and the bias row, and writes the same rows of
  its result. Every row of the result lies in exactly one block, so after the region the result array is, entry by
  entry, `max(X·W + b, 0)` of the three arrays as the region found them.
-/
import proofs.«131948_j10531259810641_2_alg».proof.Proof.Gen.KernelIdeal.Frame
import proofs.«131948_j10531259810641_2_alg».proof.Proof.MatmulBody
import proofs.«131948_j10531259810641_2_alg».proof.Proof.Spec

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array's contents after the region, entry by entry. -/
abbrev G (c : Dev nD) : S100000x128.Idx → EReal :=
  Cert.Gcn.relu (Ideal.ofBits .f32 0x00000000#32) (Cert.Gcn.dense (n := 100000) (k := 128) (o := 128) (V c main_arg0) (V c main_arg2) (V c main_v32))

/-- The block index maps over the grid: rows move with the point, the weight and bias blocks stay. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_0
  funext j
  obtain ⟨p, q, rfl⟩ : ∃ (p : Fin 10000) (q : Fin 128), j = ix2 p q := ⟨j 0, j 1, eq_ix2 j⟩
  refine (Cert.KernelIdeal.Body.pay0_apply _ _ _ p q).trans ?_
  show _ = G V c (((cfg0.win 3).blk t).view.emb (ix2 p q))
  have hr : Cert.Gcn.row (((cfg0.win 3).blk t).view.emb (ix2 p q)) = (⟨t.val * 10000 + p.val, by omega⟩ : Fin 100000) :=
    Fin.ext (by show win0_3.index t (0 : Fin 2) * 10000 + 1 * p.val = t.val * 10000 + p.val; omega)
  have hc : Cert.Gcn.col (((cfg0.win 3).blk t).view.emb (ix2 p q)) = q :=
    Fin.ext (by show win0_3.index t (1 : Fin 2) * 128 + 1 * q.val = q.val; omega)
  simp only [G, Cert.Gcn.relu, Cert.Gcn.dense, Cert.Gcn.mm]
  rw [hr, hc]
  refine congrArg₂ max (congrArg₂ (· + ·) (Finset.sum_congr rfl fun k _ => congrArg₂ (· * ·) ?_ ?_) ?_) rfl
  · show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v32 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v33).slice (win0_3.rect t)).set ↔ _
  rw [View.set_slice_whole, Rect.mem_set_unit]
  exact Iff.rfl

/-- Every entry of the result array lies in the block of the point `row / 10000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 10000 < cfg0.N := lt_of_lt_of_eq (by omega : (i 0).val / 10000 < 10) N_0.symm
  refine ⟨⟨(i 0).val / 10000, hN⟩, flush0_3 _, ?_⟩
  obtain ⟨e0, e1, e2, e3, e4, e5, e6, e7⟩ := idx_facts ⟨(i 0).val / 10000, hN⟩
  rw [mem_blk]
  intro a
  match a with
  | ⟨0, _⟩ => show win0_3.index ⟨(i 0).val / 10000, hN⟩ (0 : Fin 2) * 10000 ≤ (i 0).val ∧ (i 0).val < win0_3.index ⟨(i 0).val / 10000, hN⟩ (0 : Fin 2) * 10000 + 10000; rw [e7]; show (i 0).val / 10000 * 10000 ≤ (i 0).val ∧ (i 0).val < (i 0).val / 10000 * 10000 + 10000; omega
  | ⟨1, _⟩ => show win0_3.index ⟨(i 0).val / 10000, hN⟩ (1 : Fin 2) * 128 ≤ (i 1).val ∧ (i 1).val < win0_3.index ⟨(i 0).val / 10000, hN⟩ (1 : Fin 2) * 128 + 128; rw [e2]; omega

/-- THE RESULT ARRAY after the region: `G` of the arrays the region found. -/
theorem final (c : Dev nD) : (dat0 (F := Ideal) V c).arrAt 3 cfg0.N = G V c :=
  (dat0 (F := Ideal) V c).arrAt_eq_of_cover 3 (G V c) (fun t _ => flushed_eq V c t) (cover)

end Cert.KernelIdeal.Region0

end
-- ==== Proof.Region1.lean ====
/-
  Region 1 as one function of whole arrays. The region walks ten blocks of 10000 rows; at block `t` it loads rows
  `10000·t … 10000·t + 9999` of its first operand, the whole weight matrix and the bias row, and writes the same rows of
  its result. Every row of the result lies in exactly one block, so after the region the result array is, entry by
  entry, `max(X·W + b, 0)` of the three arrays as the region found them.
-/
import proofs.«131948_j10531259810641_2_alg».proof.Proof.Gen.KernelIdeal.Frame
import proofs.«131948_j10531259810641_2_alg».proof.Proof.MatmulBody
import proofs.«131948_j10531259810641_2_alg».proof.Proof.Spec

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array's contents after the region, entry by entry. -/
abbrev G (c : Dev nD) : S100000x128.Idx → EReal :=
  Cert.Gcn.relu (Ideal.ofBits .f32 0x00000000#32) (Cert.Gcn.dense (n := 100000) (k := 128) (o := 128) (V c main_v46) (V c main_v48) (V c main_v51))

/-- The block index maps over the grid: rows move with the point, the weight and bias blocks stay. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

/-- What point `t` writes back is block `t` of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_1
  funext j
  obtain ⟨p, q, rfl⟩ : ∃ (p : Fin 10000) (q : Fin 128), j = ix2 p q := ⟨j 0, j 1, eq_ix2 j⟩
  refine (Cert.KernelIdeal.Body.pay1_apply _ _ _ p q).trans ?_
  show _ = G V c (((cfg1.win 3).blk t).view.emb (ix2 p q))
  have hr : Cert.Gcn.row (((cfg1.win 3).blk t).view.emb (ix2 p q)) = (⟨t.val * 10000 + p.val, by omega⟩ : Fin 100000) :=
    Fin.ext (by show win1_3.index t (0 : Fin 2) * 10000 + 1 * p.val = t.val * 10000 + p.val; omega)
  have hc : Cert.Gcn.col (((cfg1.win 3).blk t).view.emb (ix2 p q)) = q :=
    Fin.ext (by show win1_3.index t (1 : Fin 2) * 128 + 1 * q.val = q.val; omega)
  simp only [G, Cert.Gcn.relu, Cert.Gcn.dense, Cert.Gcn.mm]
  rw [hr, hc]
  refine congrArg₂ max (congrArg₂ (· + ·) (Finset.sum_congr rfl fun k _ => congrArg₂ (· * ·) ?_ ?_) ?_) rfl
  · show V c main_v46 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * k.val = k.val; omega
  · show V c main_v48 (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show V c main_v51 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v52).slice (win1_3.rect t)).set ↔ _
  rw [View.set_slice_whole, Rect.mem_set_unit]
  exact Iff.rfl

/-- Every entry of the result array lies in the block of the point `row / 10000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 10000 < cfg1.N := lt_of_lt_of_eq (by omega : (i 0).val / 10000 < 10) N_1.symm
  refine ⟨⟨(i 0).val / 10000, hN⟩, flush1_3 _, ?_⟩
  obtain ⟨e0, e1, e2, e3, e4, e5, e6, e7⟩ := idx_facts ⟨(i 0).val / 10000, hN⟩
  rw [mem_blk]
  intro a
  match a with
  | ⟨0, _⟩ => show win1_3.index ⟨(i 0).val / 10000, hN⟩ (0 : Fin 2) * 10000 ≤ (i 0).val ∧ (i 0).val < win1_3.index ⟨(i 0).val / 10000, hN⟩ (0 : Fin 2) * 10000 + 10000; rw [e7]; show (i 0).val / 10000 * 10000 ≤ (i 0).val ∧ (i 0).val < (i 0).val / 10000 * 10000 + 10000; omega
  | ⟨1, _⟩ => show win1_3.index ⟨(i 0).val / 10000, hN⟩ (1 : Fin 2) * 128 ≤ (i 1).val ∧ (i 1).val < win1_3.index ⟨(i 0).val / 10000, hN⟩ (1 : Fin 2) * 128 + 128; rw [e2]; omega

/-- THE RESULT ARRAY after the region: `G` of the arrays the region found. -/
theorem final (c : Dev nD) : (dat1 (F := Ideal) V c).arrAt 3 cfg1.N = G V c :=
  (dat1 (F := Ideal) V c).arrAt_eq_of_cover 3 (G V c) (fun t _ => flushed_eq V c t) (cover)

end Cert.KernelIdeal.Region1

end
-- ==== Proof.Region2.lean ====
/-
  Region 2 as one function of whole arrays. The region walks ten blocks of 10000 rows; at block `t` it loads rows
  `10000·t … 10000·t + 9999` of its first operand, the whole weight matrix and the bias row, and writes the same rows of
  its result. Every row of the result lies in exactly one block, so after the region the result array is, entry by
  entry, `max(X·W + b, 0)` of the three arrays as the region found them.
-/
import proofs.«131948_j10531259810641_2_alg».proof.Proof.Gen.KernelIdeal.Frame
import proofs.«131948_j10531259810641_2_alg».proof.Proof.MatmulBody
import proofs.«131948_j10531259810641_2_alg».proof.Proof.Spec

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array's contents after the region, entry by entry. -/
abbrev G (c : Dev nD) : S100000x128.Idx → EReal :=
  Cert.Gcn.relu (Ideal.ofBits .f32 0x00000000#32) (Cert.Gcn.dense (n := 100000) (k := 128) (o := 128) (V c main_v65) (V c main_v67) (V c main_v70))

/-- The block index maps over the grid: rows move with the point, the weight and bias blocks stay. -/
theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val :=
  (by decide +kernel : ∀ t : Fin grid2.N, _)

/-- What point `t` writes back is block `t` of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S10000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_2
  funext j
  obtain ⟨p, q, rfl⟩ : ∃ (p : Fin 10000) (q : Fin 128), j = ix2 p q := ⟨j 0, j 1, eq_ix2 j⟩
  refine (Cert.KernelIdeal.Body.pay2_apply _ _ _ p q).trans ?_
  show _ = G V c (((cfg2.win 3).blk t).view.emb (ix2 p q))
  have hr : Cert.Gcn.row (((cfg2.win 3).blk t).view.emb (ix2 p q)) = (⟨t.val * 10000 + p.val, by omega⟩ : Fin 100000) :=
    Fin.ext (by show win2_3.index t (0 : Fin 2) * 10000 + 1 * p.val = t.val * 10000 + p.val; omega)
  have hc : Cert.Gcn.col (((cfg2.win 3).blk t).view.emb (ix2 p q)) = q :=
    Fin.ext (by show win2_3.index t (1 : Fin 2) * 128 + 1 * q.val = q.val; omega)
  simp only [G, Cert.Gcn.relu, Cert.Gcn.dense, Cert.Gcn.mm]
  rw [hr, hc]
  refine congrArg₂ max (congrArg₂ (· + ·) (Finset.sum_congr rfl fun k _ => congrArg₂ (· * ·) ?_ ?_) ?_) rfl
  · show V c main_v65 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  · show V c main_v67 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show V c main_v70 (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega

/-- An index of the result array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v71).slice (win2_3.rect t)).set ↔ _
  rw [View.set_slice_whole, Rect.mem_set_unit]
  exact Iff.rfl

/-- Every entry of the result array lies in the block of the point `row / 10000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 10000 < cfg2.N := lt_of_lt_of_eq (by omega : (i 0).val / 10000 < 10) N_2.symm
  refine ⟨⟨(i 0).val / 10000, hN⟩, flush2_3 _, ?_⟩
  obtain ⟨e0, e1, e2, e3, e4, e5, e6, e7⟩ := idx_facts ⟨(i 0).val / 10000, hN⟩
  rw [mem_blk]
  intro a
  match a with
  | ⟨0, _⟩ => show win2_3.index ⟨(i 0).val / 10000, hN⟩ (0 : Fin 2) * 10000 ≤ (i 0).val ∧ (i 0).val < win2_3.index ⟨(i 0).val / 10000, hN⟩ (0 : Fin 2) * 10000 + 10000; rw [e7]; show (i 0).val / 10000 * 10000 ≤ (i 0).val ∧ (i 0).val < (i 0).val / 10000 * 10000 + 10000; omega
  | ⟨1, _⟩ => show win2_3.index ⟨(i 0).val / 10000, hN⟩ (1 : Fin 2) * 128 ≤ (i 1).val ∧ (i 1).val < win2_3.index ⟨(i 0).val / 10000, hN⟩ (1 : Fin 2) * 128 + 128; rw [e2]; omega

/-- THE RESULT ARRAY after the region: `G` of the arrays the region found. -/
theorem final (c : Dev nD) : (dat2 (F := Ideal) V c).arrAt 3 cfg2.N = G V c :=
  (dat2 (F := Ideal) V c).arrAt_eq_of_cover 3 (G V c) (fun t _ => flushed_eq V c t) (cover)

end Cert.KernelIdeal.Region2

end
-- ==== Proof.Region3.lean ====
/-
  Region 3 as one function of whole arrays. The region walks ten blocks of 10000 rows; at block `t` it loads rows
  `10000·t … 10000·t + 9999` of its first operand, the whole weight matrix and the bias row, and writes the same rows of
  its result. Every row of the result lies in exactly one block, so after the region the result array is, entry by
  entry, `max(X·W + b, 0)` of the three arrays as the region found them.
-/
import proofs.«131948_j10531259810641_2_alg».proof.Proof.Gen.KernelIdeal.Frame
import proofs.«131948_j10531259810641_2_alg».proof.Proof.MatmulBody
import proofs.«131948_j10531259810641_2_alg».proof.Proof.Spec

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array's contents after the region, entry by entry. -/
abbrev G (c : Dev nD) : S100000x128.Idx → EReal :=
  Cert.Gcn.relu (Ideal.ofBits .f32 0x00000000#32) (Cert.Gcn.dense (n := 100000) (k := 128) (o := 128) (V c main_v84) (V c main_v86) (V c main_v89))

/-- The block index maps over the grid: rows move with the point, the weight and bias blocks stay. -/
theorem idx_facts : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val :=
  (by decide +kernel : ∀ t : Fin grid3.N, _)

/-- What point `t` writes back is block `t` of `G`. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3]
  unfold out3_3
  rw [View.canon_unit_zero hz]
  simp only [View.ld_unit_zero (S := S10000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_3
  funext j
  obtain ⟨p, q, rfl⟩ : ∃ (p : Fin 10000) (q : Fin 128), j = ix2 p q := ⟨j 0, j 1, eq_ix2 j⟩
  refine (Cert.KernelIdeal.Body.pay3_apply _ _ _ p q).trans ?_
  show _ = G V c (((cfg3.win 3).blk t).view.emb (ix2 p q))
  have hr : Cert.Gcn.row (((cfg3.win 3).blk t).view.emb (ix2 p q)) = (⟨t.val * 10000 + p.val, by omega⟩ : Fin 100000) :=
    Fin.ext (by show win3_3.index t (0 : Fin 2) * 10000 + 1 * p.val = t.val * 10000 + p.val; omega)
  have hc : Cert.Gcn.col (((cfg3.win 3).blk t).view.emb (ix2 p q)) = q :=
    Fin.ext (by show win3_3.index t (1 : Fin 2) * 128 + 1 * q.val = q.val; omega)
  simp only [G, Cert.Gcn.relu, Cert.Gcn.dense, Cert.Gcn.mm]
  rw [hr, hc]
  refine congrArg₂ max (congrArg₂ (· + ·) (Finset.sum_congr rfl fun k _ => congrArg₂ (· * ·) ?_ ?_) ?_) rfl
  · show V c main_v84 (((cfg3.win 0).blk t).view.emb (ix2 p k)) = _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 128 + 1 * k.val = k.val; omega
  · show V c main_v86 (((cfg3.win 1).blk t).view.emb (ix2 k q)) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show V c main_v89 (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega

/-- An index of the result array is in point `t`'s block iff each coordinate is in the block's range on its axis. -/
theorem mem_blk (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v90).slice (win3_3.rect t)).set ↔ _
  rw [View.set_slice_whole, Rect.mem_set_unit]
  exact Iff.rfl

/-- Every entry of the result array lies in the block of the point `row / 10000`. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 10000 < cfg3.N := lt_of_lt_of_eq (by omega : (i 0).val / 10000 < 10) N_3.symm
  refine ⟨⟨(i 0).val / 10000, hN⟩, flush3_3 _, ?_⟩
  obtain ⟨e0, e1, e2, e3, e4, e5, e6, e7⟩ := idx_facts ⟨(i 0).val / 10000, hN⟩
  rw [mem_blk]
  intro a
  match a with
  | ⟨0, _⟩ => show win3_3.index ⟨(i 0).val / 10000, hN⟩ (0 : Fin 2) * 10000 ≤ (i 0).val ∧ (i 0).val < win3_3.index ⟨(i 0).val / 10000, hN⟩ (0 : Fin 2) * 10000 + 10000; rw [e7]; show (i 0).val / 10000 * 10000 ≤ (i 0).val ∧ (i 0).val < (i 0).val / 10000 * 10000 + 10000; omega
  | ⟨1, _⟩ => show win3_3.index ⟨(i 0).val / 10000, hN⟩ (1 : Fin 2) * 128 ≤ (i 1).val ∧ (i 1).val < win3_3.index ⟨(i 0).val / 10000, hN⟩ (1 : Fin 2) * 128 + 128; rw [e2]; omega

/-- THE RESULT ARRAY after the region: `G` of the arrays the region found. -/
theorem final (c : Dev nD) : (dat3 (F := Ideal) V c).arrAt 3 cfg3.N = G V c :=
  (dat3 (F := Ideal) V c).arrAt_eq_of_cover 3 (G V c) (fun t _ => flushed_eq V c t) (cover)

end Cert.KernelIdeal.Region3

end
-- ==== Proof.Region4.lean ====
/-
  Region 4 as one function of whole arrays. The region walks ten blocks of 10000 rows; at block `t` it loads rows
  `10000·t … 10000·t + 9999` of its first operand, the whole weight matrix and the bias row, and writes the same rows of
  its result. Every row of the result lies in exactly one block, so after the region the result array is, entry by
  entry, `X·W + b` of the three arrays as the region found them.
-/
import proofs.«131948_j10531259810641_2_alg».proof.Proof.Gen.KernelIdeal.Frame
import proofs.«131948_j10531259810641_2_alg».proof.Proof.MatmulBody
import proofs.«131948_j10531259810641_2_alg».proof.Proof.Spec

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array's contents after the region, entry by entry. -/
abbrev G (c : Dev nD) : S100000x64.Idx → EReal :=
  Cert.Gcn.dense (n := 100000) (k := 128) (o := 64) (V c main_v90) (V c main_arg6) (V c main_v91)

/-- The block index maps over the grid: rows move with the point, the weight and bias blocks stay. -/
theorem idx_facts : ∀ t : Fin cfg4.N, win4_0.index t (0 : Fin 2) = win4_3.index t (0 : Fin 2)
    ∧ win4_0.index t (1 : Fin 2) = 0 ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val :=
  (by decide +kernel : ∀ t : Fin grid4.N, _)

/-- What point `t` writes back is block `t` of `G`. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 (F := Ideal) V c).after 3 t) = _
  rw [after4_3]
  unfold out4_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx_facts t
  have ht : t.val < 10 := lt_of_lt_of_eq t.isLt N_4
  funext j
  obtain ⟨p, q, rfl⟩ : ∃ (p : Fin 10000) (q : Fin 64), j = ix2 p q := ⟨j 0, j 1, eq_ix2 j⟩
  refine (Cert.KernelIdeal.Body.pay4_apply _ _ _ p q).trans ?_
  show _ = G V c (((cfg4.win 3).blk t).view.emb (ix2 p q))
  have hr : Cert.Gcn.row (((cfg4.win 3).blk t).view.emb (ix2 p q)) = (⟨t.val * 10000 + p.val, by omega⟩ : Fin 100000) :=
    Fin.ext (by show win4_3.index t (0 : Fin 2) * 10000 + 1 * p.val = t.val * 10000 + p.val; omega)
  have hc : Cert.Gcn.col (((cfg4.win 3).blk t).view.emb (ix2 p q)) = q :=
    Fin.ext (by show win4_3.index t (1 : Fin 2) * 64 + 1 * q.val = q.val; omega)
  simp only [G, Cert.Gcn.relu, Cert.Gcn.dense, Cert.Gcn.mm]
  rw [hr, hc]
  refine congrArg₂ (· + ·) (Finset.sum_congr rfl fun k _ => congrArg₂ (· * ·) ?_ ?_) ?_
  · show V c main_v90 (((cfg4.win 0).blk t).view.emb (ix2 p k)) = _
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 128 + 1 * k.val = k.val; omega
  · show V c main_arg6 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = q.val; omega
  · show V c main_v91 (((cfg4.win 2).blk t).view.emb (ix2 (0 : Fin 1) q)) = _
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = q.val; omega

/-- An index of the result array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v92).slice (win4_3.rect t)).set ↔ _
  rw [View.set_slice_whole, Rect.mem_set_unit]
  exact Iff.rfl

/-- Every entry of the result array lies in the block of the point `row / 10000`. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : (i 0).val / 10000 < cfg4.N := lt_of_lt_of_eq (by omega : (i 0).val / 10000 < 10) N_4.symm
  refine ⟨⟨(i 0).val / 10000, hN⟩, flush4_3 _, ?_⟩
  obtain ⟨e0, e1, e2, e3, e4, e5, e6, e7⟩ := idx_facts ⟨(i 0).val / 10000, hN⟩
  rw [mem_blk]
  intro a
  match a with
  | ⟨0, _⟩ => show win4_3.index ⟨(i 0).val / 10000, hN⟩ (0 : Fin 2) * 10000 ≤ (i 0).val ∧ (i 0).val < win4_3.index ⟨(i 0).val / 10000, hN⟩ (0 : Fin 2) * 10000 + 10000; rw [e7]; show (i 0).val / 10000 * 10000 ≤ (i 0).val ∧ (i 0).val < (i 0).val / 10000 * 10000 + 10000; omega
  | ⟨1, _⟩ => show win4_3.index ⟨(i 0).val / 10000, hN⟩ (1 : Fin 2) * 64 ≤ (i 1).val ∧ (i 1).val < win4_3.index ⟨(i 0).val / 10000, hN⟩ (1 : Fin 2) * 64 + 64; rw [e2]; omega

/-- THE RESULT ARRAY after the region: `G` of the arrays the region found. -/
theorem final (c : Dev nD) : (dat4 (F := Ideal) V c).arrAt 3 cfg4.N = G V c :=
  (dat4 (F := Ideal) V c).arrAt_eq_of_cover 3 (G V c) (fun t _ => flushed_eq V c t) (cover)

end Cert.KernelIdeal.Region4

end
-- ==== Proof.Terms.lean ====
/-
  The two programs' host-side operations, named once. Both programs build the edge list with self-loops, the symmetric
  normalisation weights `dinv[src]·dinv[dst]`, and one aggregation per layer out of the same gathers, scatters,
  broadcasts and slices; they differ only in how the in-degree is counted (integer ones converted, against float ones)
  and in the order of aggregation and projection. Each definition below is one of those pieces over the literal shapes.
-/
import proofs.«131948_j10531259810641_2_alg».proof.Proof.Spec
import Idealize.ShloMosaic.PureOps.Ideal

noncomputable section

namespace Cert.Gcn

open Idealize.ShloMosaic

abbrev S0 : Shape := ⟨0, ![]⟩
abbrev SN : Shape := ⟨1, ![100000]⟩
abbrev SE : Shape := ⟨1, ![1600000]⟩
abbrev SM : Shape := ⟨1, ![1700000]⟩
abbrev S1E : Shape := ⟨2, ![1, 1600000]⟩
abbrev S2E : Shape := ⟨2, ![2, 1600000]⟩
abbrev SM1 : Shape := ⟨2, ![1700000, 1]⟩
abbrev SMK : Shape := ⟨2, ![1700000, 128]⟩
abbrev SNK : Shape := ⟨2, ![100000, 128]⟩
abbrev SNO : Shape := ⟨2, ![100000, 64]⟩
abbrev SKK : Shape := ⟨2, ![128, 128]⟩
abbrev SKO : Shape := ⟨2, ![128, 64]⟩
abbrev SK : Shape := ⟨1, ![128]⟩
abbrev SO : Shape := ⟨1, ![64]⟩
abbrev S1K : Shape := ⟨2, ![1, 128]⟩
abbrev S1O : Shape := ⟨2, ![1, 64]⟩
abbrev S3KK : Shape := ⟨3, ![3, 128, 128]⟩
abbrev S1KK : Shape := ⟨3, ![1, 128, 128]⟩
abbrev S3K : Shape := ⟨2, ![3, 128]⟩

/-! ## The shape relations the operations take -/

theorem h_sl0 : S2E.Slices ![0, 0] S1E := by decide
theorem h_sl1 : S2E.Slices ![1, 0] S1E := by decide
theorem h_sc : S1E.ShapeCasts SE := by decide
theorem h_cat : Shape.Concatenates [SE, SN] SM 0 := by decide
theorem h_b0M : S0.BroadcastsInDim SM (![] : Fin 0 → Fin SM.rank) := by decide
theorem h_b0N : S0.BroadcastsInDim SN (![] : Fin 0 → Fin SN.rank) := by decide
theorem h_bM1 : SM.BroadcastsInDim SM1 (![0] : Fin 1 → Fin SM1.rank) := by decide
theorem h_b0NK : S0.BroadcastsInDim SNK (![] : Fin 0 → Fin SNK.rank) := by decide
theorem h_bMK : SM1.BroadcastsInDim SMK (![0, 1] : Fin 2 → Fin SMK.rank) := by decide
theorem h_bK1K : SK.BroadcastsInDim S1K (![1] : Fin 1 → Fin S1K.rank) := by decide
theorem h_b1KNK : S1K.BroadcastsInDim SNK (![0, 1] : Fin 2 → Fin SNK.rank) := by decide
theorem h_bO1O : SO.BroadcastsInDim S1O (![1] : Fin 1 → Fin S1O.rank) := by decide
theorem h_b1ONO : S1O.BroadcastsInDim SNO (![0, 1] : Fin 2 → Fin SNO.rank) := by decide
theorem h_scW : S1KK.ShapeCasts SKK := by decide
theorem h_scB : S1K.ShapeCasts SK := by decide
theorem h_scK1K : SK.ShapeCasts S1K := by decide
theorem h_scO1O : SO.ShapeCasts S1O := by decide

/-- "Add update `e` into operand entry `idx[e]`" on flat arrays. -/
abbrev sc1 : ScatterDims SN SM1 SM where
  updateWindowDims := []
  insertedWindowDims := [0]
  scatterDimsToOperandDims := [0]
  indexVectorDim := 1
  wf := by decide
/-- "Result entry `e` is operand entry `idx[e]`" on flat arrays. -/
abbrev g1 : GatherDims SN SM1 SM where
  offsetDims := []
  collapsedSliceDims := [0]
  operandBatchingDims := []
  startIndicesBatchingDims := []
  startIndexMap := [0]
  indexVectorDim := 1
  sliceSizes := ![1]
  wf := by decide
/-- The row scatter and row gather of the feature matrices. -/
abbrev sc2 : ScatterDims SNK SM1 SMK := rowScatter 100000 1700000 128 (by decide)
abbrev g2 : GatherDims SNK SM1 SMK := rowGather 100000 1700000 128 (by decide)
/-- Plain matrix products `[n, k]·[k, o]`. -/
abbrev dotKK : DotDims SNK SKK SNK where
  lhsContracting := [1]
  rhsContracting := [0]
  lhsNonContracting := [0]
  rhsNonContracting := [1]
  lhsBatch := []
  rhsBatch := []
  wf := by decide
abbrev dotKO : DotDims SNK SKO SNO where
  lhsContracting := [1]
  rhsContracting := [0]
  lhsNonContracting := [0]
  rhsNonContracting := [1]
  lhsBatch := []
  rhsBatch := []
  wf := by decide

/-! ## Edges and index arithmetic -/

/-- Row `0` of the edge list (the sources) followed by `0 … N-1` (the self-loops). -/
def srcOf (e : IVec S2E 32) : IVec SM 32 :=
  concatenate SM 0 [⟨SE, shapeCast SE (extractStridedSlice S1E ![0, 0] e h_sl0) h_sc⟩, ⟨SN, iotaInDim SN 32 0⟩] h_cat
/-- Row `1` of the edge list (the targets) followed by `0 … N-1`. -/
def dstOf (e : IVec S2E 32) : IVec SM 32 :=
  concatenate SM 0 [⟨SE, shapeCast SE (extractStridedSlice S1E ![1, 0] e h_sl1) h_sc⟩, ⟨SN, iotaInDim SN 32 0⟩] h_cat

/-- A gather's start indices: a negative index counts from the end (`+ N`), as a column `[M, 1]`. -/
def wrapIdx (r : IVec SM 32) : IVec SM1 32 :=
  broadcastInDim SM1 ![0] h_bM1
    (select (cmpi .slt r (broadcastInDim SM ![] h_b0M (constantI S0 32 0#32)))
      (addi r (broadcastInDim SM ![] h_b0M (constantI S0 32 100000#32))) r)
/-- A scatter's indices: the targets as a column `[M, 1]`. -/
def colIdx (c : IVec SM 32) : IVec SM1 32 := broadcastInDim SM1 ![0] h_bM1 c

/-! ## Degrees and normalisation weights -/

/-- The in-degree as a float sum of ones. -/
def degF (c : IVec SM 32) : FVec Ideal SN .f32 :=
  Host.scatterAdd (F := Ideal) sc1 (broadcastInDim SN ![] h_b0N (constant (F := Ideal) S0 .f32 0x00000000#32)) (colIdx c)
    (broadcastInDim SM ![] h_b0M (constant (F := Ideal) S0 .f32 0x3F800000#32))
/-- The in-degree as an integer sum of ones, converted. -/
def degI (c : IVec SM 32) : FVec Ideal SN .f32 :=
  sitofp (F := Ideal) .f32 (Host.scatter sc1 IntOp.addi (broadcastInDim SN ![] h_b0N (constantI S0 32 0#32)) (colIdx c)
    (broadcastInDim SM ![] h_b0M (constantI S0 32 1#32)))
/-- `deg > 0 ? rsqrt(deg) : 0`. -/
def dinvOf (deg : FVec Ideal SN .f32) : FVec Ideal SN .f32 :=
  select (cmpf (F := Ideal) .ogt deg (broadcastInDim SN ![] h_b0N (constant (F := Ideal) S0 .f32 0x00000000#32))) (Host.rsqrt deg)
    (broadcastInDim SN ![] h_b0N (id (constant (F := Ideal) S0 .f32 0x00000000#32)))
/-- The edge weights `dinv[src]·dinv[dst]`, as a column `[M, 1]`. -/
def normOf (dinv : FVec Ideal SN .f32) (r c : IVec SM 32) : FVec Ideal SM1 .f32 :=
  broadcastInDim SM1 ![0] h_bM1 (mulf (Host.gather g1 dinv (wrapIdx r)) (Host.gather g1 dinv (wrapIdx c)))

/-! ## One aggregation, and the dense pieces -/

/-- Gather the source rows of `v`, scale each by its edge weight, add into the target rows of a zero matrix. -/
def aggOf (v : SNK.Idx → EReal) (r c : IVec SM 32) (nrm : FVec Ideal SM1 .f32) : FVec Ideal SNK .f32 :=
  Host.scatterAdd (F := Ideal) sc2 (broadcastInDim SNK ![] h_b0NK (constant (F := Ideal) S0 .f32 0x00000000#32)) (colIdx c)
    (mulf (φ := .f32) (Host.gather g2 v (wrapIdx r)) (broadcastInDim SMK ![0, 1] h_bMK nrm))

/-- The host's matrix products. -/
def mmT (X : FVec Ideal SNK .f32) (W : FVec Ideal SKK .f32) : FVec Ideal SNK .f32 := Host.dotGeneral (F := Ideal) dotKK none X W
def mmO (X : FVec Ideal SNK .f32) (W : FVec Ideal SKO .f32) : FVec Ideal SNO .f32 := Host.dotGeneral (F := Ideal) dotKO none X W
/-- A bias vector repeated on every row. -/
def biasRows (b : FVec Ideal SK .f32) : FVec Ideal SNK .f32 := broadcastInDim SNK ![0, 1] h_b1KNK (broadcastInDim S1K ![1] h_bK1K b)
def biasRowsO (b : FVec Ideal SO .f32) : FVec Ideal SNO .f32 := broadcastInDim SNO ![0, 1] h_b1ONO (broadcastInDim S1O ![1] h_bO1O b)
/-- The host's rectifier. -/
def reluT (X : FVec Ideal SNK .f32) : FVec Ideal SNK .f32 :=
  maximumf X (broadcastInDim SNK ![] h_b0NK (constant (F := Ideal) S0 .f32 0x00000000#32))
/-- Layer `l`'s weight matrix and bias out of the stacked parameters (`off` = `![l, 0, 0]`, `![l, 0]`). -/
def wOf (off : Fin 3 → Nat) (h : S3KK.Slices off S1KK) (cw : FVec Ideal S3KK .f32) : FVec Ideal SKK .f32 :=
  shapeCast SKK (extractStridedSlice S1KK off cw h) h_scW
def bOf (off : Fin 2 → Nat) (h : S3K.Slices off S1K) (cb : FVec Ideal S3K .f32) : FVec Ideal SK .f32 :=
  shapeCast SK (extractStridedSlice S1K off cb h) h_scB
/-- A bias vector as the one-row matrix the regions take. -/
def rowOf (b : FVec Ideal SK .f32) : FVec Ideal S1K .f32 := shapeCast S1K b h_scK1K
def rowOfO (b : FVec Ideal SO .f32) : FVec Ideal S1O .f32 := shapeCast S1O b h_scO1O

end Cert.Gcn

end
-- ==== Proof.Programs.lean ====
/-
  The two programs as functions of their eight arguments, composed from the named pieces: the reference projects each
  layer's features and then aggregates them over the edges; the kernel program aggregates and then projects inside a
  matrix-product region. `kerOut = refOut` on real inputs is the certificate's algebraic claim.
-/
import proofs.«131948_j10531259810641_2_alg».proof.Proof.Terms

noncomputable section

namespace Cert.Gcn

open Idealize.ShloMosaic

theorem h_slW0 : S3KK.Slices ![0, 0, 0] S1KK := by decide
theorem h_slW1 : S3KK.Slices ![1, 0, 0] S1KK := by decide
theorem h_slW2 : S3KK.Slices ![2, 0, 0] S1KK := by decide
theorem h_slB0 : S3K.Slices ![0, 0] S1K := by decide
theorem h_slB1 : S3K.Slices ![1, 0] S1K := by decide
theorem h_slB2 : S3K.Slices ![2, 0] S1K := by decide

/-- The zero the rectifiers compare against, as the word the programs print. -/
abbrev z0 : EReal := Ideal.ofBits .f32 0x00000000#32

/-- The edge weights, with the in-degree counted in floats (reference) or in integers (kernel program). -/
def refNorm (e : IVec S2E 32) : FVec Ideal SM1 .f32 := normOf (dinvOf (degF (dstOf e))) (srcOf e) (dstOf e)
def kerNorm (e : IVec S2E 32) : FVec Ideal SM1 .f32 := normOf (dinvOf (degI (dstOf e))) (srcOf e) (dstOf e)

/-- The input projection `relu(x·W + b)`: on the host, and as a region computes it. -/
def refH0 (x : FVec Ideal SNK .f32) (W : FVec Ideal SKK .f32) (b : FVec Ideal SK .f32) : FVec Ideal SNK .f32 :=
  reluT (addf (mmT x W) (biasRows b))
def kerH0 (x : FVec Ideal SNK .f32) (W : FVec Ideal SKK .f32) (b : FVec Ideal SK .f32) : SNK.Idx → EReal :=
  relu z0 (dense (n := 100000) (k := 128) (o := 128) x W (rowOf b))

/-- One graph-convolution layer: project then aggregate (reference); aggregate then project (kernel program). -/
def refLayer (h : FVec Ideal SNK .f32) (W : FVec Ideal SKK .f32) (b : FVec Ideal SK .f32) (e : IVec S2E 32) (nrm : FVec Ideal SM1 .f32) :
    FVec Ideal SNK .f32 :=
  reluT (addf (aggOf (mmT h W) (srcOf e) (dstOf e) nrm) (biasRows b))
def kerLayer (h : SNK.Idx → EReal) (W : FVec Ideal SKK .f32) (b : FVec Ideal SK .f32) (e : IVec S2E 32) (nrm : FVec Ideal SM1 .f32) :
    SNK.Idx → EReal :=
  relu z0 (dense (n := 100000) (k := 128) (o := 128) (aggOf h (srcOf e) (dstOf e) nrm) W (rowOf b))

/-- The reference's result. -/
def refOut (x : FVec Ideal SNK .f32) (e : IVec S2E 32) (Win : FVec Ideal SKK .f32) (bin : FVec Ideal SK .f32)
    (cw : FVec Ideal S3KK .f32) (cb : FVec Ideal S3K .f32) (Wout : FVec Ideal SKO .f32) (bout : FVec Ideal SO .f32) : FVec Ideal SNO .f32 :=
  addf (mmO
    (refLayer (refLayer (refLayer (refH0 x Win bin) (wOf ![0, 0, 0] h_slW0 cw) (bOf ![0, 0] h_slB0 cb) e (refNorm e))
      (wOf ![1, 0, 0] h_slW1 cw) (bOf ![1, 0] h_slB1 cb) e (refNorm e))
      (wOf ![2, 0, 0] h_slW2 cw) (bOf ![2, 0] h_slB2 cb) e (refNorm e)) Wout) (biasRowsO bout)

/-- The kernel program's result. -/
def kerOut (x : FVec Ideal SNK .f32) (e : IVec S2E 32) (Win : FVec Ideal SKK .f32) (bin : FVec Ideal SK .f32)
    (cw : FVec Ideal S3KK .f32) (cb : FVec Ideal S3K .f32) (Wout : FVec Ideal SKO .f32) (bout : FVec Ideal SO .f32) : SNO.Idx → EReal :=
  dense (n := 100000) (k := 128) (o := 64)
    (kerLayer (kerLayer (kerLayer (kerH0 x Win bin) (wOf ![0, 0, 0] h_slW0 cw) (bOf ![0, 0] h_slB0 cb) e (kerNorm e))
      (wOf ![1, 0, 0] h_slW1 cw) (bOf ![1, 0] h_slB1 cb) e (kerNorm e))
      (wOf ![2, 0, 0] h_slW2 cw) (bOf ![2, 0] h_slB2 cb) e (kerNorm e)) Wout (rowOfO bout)

end Cert.Gcn

end
-- ==== Proof.HostStretch.lean ====
/-
  The kernel program's host operations between its five matrix-product regions, read as the named pieces.

  Before the first region the program builds the edge list with its self-loops (sources and targets), counts the
  in-degree with an integer sum of ones, turns it into the symmetric normalisation weights, and lays the input bias out
  as a one-row matrix. Before each of the three graph-convolution regions it gathers the source rows of the previous
  region's features, scales them by the weights and adds them into the target rows of a zero matrix, and slices that
  layer's weight matrix and bias out of the stacked parameters. Before the last region it lays the output bias out as a
  one-row matrix. Each statement below says that the buffer such a stretch writes holds exactly the corresponding
  named term of the contents the stretch started from, for arbitrary starting contents; the "keep" statements say that
  a buffer the stretch does not write holds what it held.
-/
import proofs.«131948_j10531259810641_2_alg».proof.Proof.Gen.KernelIdeal.Launch
import proofs.«131948_j10531259810641_2_alg».proof.Proof.Programs
import Idealize.ShloMosaic.Lib.StableHlo.Run
import Idealize.ShloMosaic.Lib.ValueIdx

noncomputable section

namespace Cert.Gcn

open Cert.KernelIdeal Cert.KernelIdeal.Gen
open Idealize.ShloMosaic Idealize.ShloMosaic.ValueIdx Idealize.ShloMosaic.StableHlo
open scoped BigOperators

-- Arbitrary contents of the device's buffers at the start of a stretch.
variable (W : Valuation τ sig (Elt Ideal))

/-! ## Before the first region

Each written buffer's contents are the composition of the operations that feed it; unfolding the named terms gives
the same composition, so the two sides agree by computation. The select's third operand passes through an identity
copy, which the named term `dinvOf` carries as `id`. -/

/-- The sources: row `0` of the edge list followed by the self-loops `0 … N-1`. -/
theorem prologue_v3 : after (hostOps0_2 (F := Ideal)) (after (hostOps0_1 (F := Ideal)) (after (hostOps0 (F := Ideal)) W)) (Proc.devRef .tc main_v3)
    = srcOf (W (Proc.devRef .tc main_arg1)) := by
  after_results_simp
  rfl

/-- The targets: row `1` of the edge list followed by the self-loops. -/
theorem prologue_v6 : after (hostOps0_2 (F := Ideal)) (after (hostOps0_1 (F := Ideal)) (after (hostOps0 (F := Ideal)) W)) (Proc.devRef .tc main_v6)
    = dstOf (W (Proc.devRef .tc main_arg1)) := by
  after_results_simp
  rfl

set_option maxHeartbeats 2000000 in
/-- The edge weights `dinv[src]·dinv[dst]`, the in-degree counted by the integer sum of ones and then converted. -/
theorem prologue_v31 : after (hostOps0_2 (F := Ideal)) (after (hostOps0_1 (F := Ideal)) (after (hostOps0 (F := Ideal)) W)) (Proc.devRef .tc main_v31)
    = kerNorm (W (Proc.devRef .tc main_arg1)) := by
  after_results_simp
  rfl

/-- The input bias as a one-row matrix. -/
theorem prologue_v32 : after (hostOps0_2 (F := Ideal)) (after (hostOps0_1 (F := Ideal)) (after (hostOps0 (F := Ideal)) W)) (Proc.devRef .tc main_v32)
    = rowOf (W (Proc.devRef .tc main_arg3)) := by
  after_results_simp
  rfl

/-! The eight arguments are written by none of these operations. -/

theorem prologue_arg0 : after (hostOps0_2 (F := Ideal)) (after (hostOps0_1 (F := Ideal)) (after (hostOps0 (F := Ideal)) W)) (Proc.devRef .tc main_arg0)
    = W (Proc.devRef .tc main_arg0) := by
  after_results_simp

theorem prologue_arg1 : after (hostOps0_2 (F := Ideal)) (after (hostOps0_1 (F := Ideal)) (after (hostOps0 (F := Ideal)) W)) (Proc.devRef .tc main_arg1)
    = W (Proc.devRef .tc main_arg1) := by
  after_results_simp

theorem prologue_arg2 : after (hostOps0_2 (F := Ideal)) (after (hostOps0_1 (F := Ideal)) (after (hostOps0 (F := Ideal)) W)) (Proc.devRef .tc main_arg2)
    = W (Proc.devRef .tc main_arg2) := by
  after_results_simp

theorem prologue_arg3 : after (hostOps0_2 (F := Ideal)) (after (hostOps0_1 (F := Ideal)) (after (hostOps0 (F := Ideal)) W)) (Proc.devRef .tc main_arg3)
    = W (Proc.devRef .tc main_arg3) := by
  after_results_simp

theorem prologue_arg4 : after (hostOps0_2 (F := Ideal)) (after (hostOps0_1 (F := Ideal)) (after (hostOps0 (F := Ideal)) W)) (Proc.devRef .tc main_arg4)
    = W (Proc.devRef .tc main_arg4) := by
  after_results_simp

theorem prologue_arg5 : after (hostOps0_2 (F := Ideal)) (after (hostOps0_1 (F := Ideal)) (after (hostOps0 (F := Ideal)) W)) (Proc.devRef .tc main_arg5)
    = W (Proc.devRef .tc main_arg5) := by
  after_results_simp

theorem prologue_arg6 : after (hostOps0_2 (F := Ideal)) (after (hostOps0_1 (F := Ideal)) (after (hostOps0 (F := Ideal)) W)) (Proc.devRef .tc main_arg6)
    = W (Proc.devRef .tc main_arg6) := by
  after_results_simp

theorem prologue_arg7 : after (hostOps0_2 (F := Ideal)) (after (hostOps0_1 (F := Ideal)) (after (hostOps0 (F := Ideal)) W)) (Proc.devRef .tc main_arg7)
    = W (Proc.devRef .tc main_arg7) := by
  after_results_simp

/-! ## Before the first graph-convolution region

The gathered rows pass through a widening of the float format, which is the identity on extended reals, so the
aggregation is literally `aggOf` of the previous features, the edge list and the weights. -/

set_option maxHeartbeats 1000000 in
/-- The aggregation of the previous region's features over the edges. -/
theorem stretch1_v46 : after (hostOps1 (F := Ideal)) W (Proc.devRef .tc main_v46)
    = aggOf (W (Proc.devRef .tc main_v33)) (W (Proc.devRef .tc main_v3)) (W (Proc.devRef .tc main_v6)) (W (Proc.devRef .tc main_v31)) := by
  after_results_simp
  rfl

/-- The layer's weight matrix, sliced out of the stacked weights. -/
theorem stretch1_v48 : after (hostOps1 (F := Ideal)) W (Proc.devRef .tc main_v48)
    = wOf ![0, 0, 0] h_slW0 (W (Proc.devRef .tc main_arg4)) := by
  after_results_simp
  rfl

/-- The layer's bias, sliced out of the stacked biases, as a one-row matrix. -/
theorem stretch1_v51 : after (hostOps1 (F := Ideal)) W (Proc.devRef .tc main_v51)
    = rowOf (bOf ![0, 0] h_slB0 (W (Proc.devRef .tc main_arg5))) := by
  after_results_simp
  rfl

/-! The edge list, the weights and the parameters are written by none of these operations. -/

theorem stretch1_keep_v3 : after (hostOps1 (F := Ideal)) W (Proc.devRef .tc main_v3)
    = W (Proc.devRef .tc main_v3) := by
  after_results_simp

theorem stretch1_keep_v6 : after (hostOps1 (F := Ideal)) W (Proc.devRef .tc main_v6)
    = W (Proc.devRef .tc main_v6) := by
  after_results_simp

theorem stretch1_keep_v31 : after (hostOps1 (F := Ideal)) W (Proc.devRef .tc main_v31)
    = W (Proc.devRef .tc main_v31) := by
  after_results_simp

theorem stretch1_keep_arg4 : after (hostOps1 (F := Ideal)) W (Proc.devRef .tc main_arg4)
    = W (Proc.devRef .tc main_arg4) := by
  after_results_simp

theorem stretch1_keep_arg5 : after (hostOps1 (F := Ideal)) W (Proc.devRef .tc main_arg5)
    = W (Proc.devRef .tc main_arg5) := by
  after_results_simp

theorem stretch1_keep_arg6 : after (hostOps1 (F := Ideal)) W (Proc.devRef .tc main_arg6)
    = W (Proc.devRef .tc main_arg6) := by
  after_results_simp

theorem stretch1_keep_arg7 : after (hostOps1 (F := Ideal)) W (Proc.devRef .tc main_arg7)
    = W (Proc.devRef .tc main_arg7) := by
  after_results_simp

/-! ## Before the second graph-convolution region

The gathered rows pass through a widening of the float format, which is the identity on extended reals, so the
aggregation is literally `aggOf` of the previous features, the edge list and the weights. -/

set_option maxHeartbeats 1000000 in
/-- The aggregation of the previous region's features over the edges. -/
theorem stretch2_v65 : after (hostOps2 (F := Ideal)) W (Proc.devRef .tc main_v65)
    = aggOf (W (Proc.devRef .tc main_v52)) (W (Proc.devRef .tc main_v3)) (W (Proc.devRef .tc main_v6)) (W (Proc.devRef .tc main_v31)) := by
  after_results_simp
  rfl

/-- The layer's weight matrix, sliced out of the stacked weights. -/
theorem stretch2_v67 : after (hostOps2 (F := Ideal)) W (Proc.devRef .tc main_v67)
    = wOf ![1, 0, 0] h_slW1 (W (Proc.devRef .tc main_arg4)) := by
  after_results_simp
  rfl

/-- The layer's bias, sliced out of the stacked biases, as a one-row matrix. -/
theorem stretch2_v70 : after (hostOps2 (F := Ideal)) W (Proc.devRef .tc main_v70)
    = rowOf (bOf ![1, 0] h_slB1 (W (Proc.devRef .tc main_arg5))) := by
  after_results_simp
  rfl

/-! The edge list, the weights and the parameters are written by none of these operations. -/

theorem stretch2_keep_v3 : after (hostOps2 (F := Ideal)) W (Proc.devRef .tc main_v3)
    = W (Proc.devRef .tc main_v3) := by
  after_results_simp

theorem stretch2_keep_v6 : after (hostOps2 (F := Ideal)) W (Proc.devRef .tc main_v6)
    = W (Proc.devRef .tc main_v6) := by
  after_results_simp

theorem stretch2_keep_v31 : after (hostOps2 (F := Ideal)) W (Proc.devRef .tc main_v31)
    = W (Proc.devRef .tc main_v31) := by
  after_results_simp

theorem stretch2_keep_arg4 : after (hostOps2 (F := Ideal)) W (Proc.devRef .tc main_arg4)
    = W (Proc.devRef .tc main_arg4) := by
  after_results_simp

theorem stretch2_keep_arg5 : after (hostOps2 (F := Ideal)) W (Proc.devRef .tc main_arg5)
    = W (Proc.devRef .tc main_arg5) := by
  after_results_simp

theorem stretch2_keep_arg6 : after (hostOps2 (F := Ideal)) W (Proc.devRef .tc main_arg6)
    = W (Proc.devRef .tc main_arg6) := by
  after_results_simp

theorem stretch2_keep_arg7 : after (hostOps2 (F := Ideal)) W (Proc.devRef .tc main_arg7)
    = W (Proc.devRef .tc main_arg7) := by
  after_results_simp

/-! ## Before the third graph-convolution region

The gathered rows pass through a widening of the float format, which is the identity on extended reals, so the
aggregation is literally `aggOf` of the previous features, the edge list and the weights. -/

set_option maxHeartbeats 1000000 in
/-- The aggregation of the previous region's features over the edges. -/
theorem stretch3_v84 : after (hostOps3 (F := Ideal)) W (Proc.devRef .tc main_v84)
    = aggOf (W (Proc.devRef .tc main_v71)) (W (Proc.devRef .tc main_v3)) (W (Proc.devRef .tc main_v6)) (W (Proc.devRef .tc main_v31)) := by
  after_results_simp
  rfl

/-- The layer's weight matrix, sliced out of the stacked weights. -/
theorem stretch3_v86 : after (hostOps3 (F := Ideal)) W (Proc.devRef .tc main_v86)
    = wOf ![2, 0, 0] h_slW2 (W (Proc.devRef .tc main_arg4)) := by
  after_results_simp
  rfl

/-- The layer's bias, sliced out of the stacked biases, as a one-row matrix. -/
theorem stretch3_v89 : after (hostOps3 (F := Ideal)) W (Proc.devRef .tc main_v89)
    = rowOf (bOf ![2, 0] h_slB2 (W (Proc.devRef .tc main_arg5))) := by
  after_results_simp
  rfl

/-! The edge list, the weights and the parameters are written by none of these operations. -/

theorem stretch3_keep_v3 : after (hostOps3 (F := Ideal)) W (Proc.devRef .tc main_v3)
    = W (Proc.devRef .tc main_v3) := by
  after_results_simp

theorem stretch3_keep_v6 : after (hostOps3 (F := Ideal)) W (Proc.devRef .tc main_v6)
    = W (Proc.devRef .tc main_v6) := by
  after_results_simp

theorem stretch3_keep_v31 : after (hostOps3 (F := Ideal)) W (Proc.devRef .tc main_v31)
    = W (Proc.devRef .tc main_v31) := by
  after_results_simp

theorem stretch3_keep_arg4 : after (hostOps3 (F := Ideal)) W (Proc.devRef .tc main_arg4)
    = W (Proc.devRef .tc main_arg4) := by
  after_results_simp

theorem stretch3_keep_arg5 : after (hostOps3 (F := Ideal)) W (Proc.devRef .tc main_arg5)
    = W (Proc.devRef .tc main_arg5) := by
  after_results_simp

theorem stretch3_keep_arg6 : after (hostOps3 (F := Ideal)) W (Proc.devRef .tc main_arg6)
    = W (Proc.devRef .tc main_arg6) := by
  after_results_simp

theorem stretch3_keep_arg7 : after (hostOps3 (F := Ideal)) W (Proc.devRef .tc main_arg7)
    = W (Proc.devRef .tc main_arg7) := by
  after_results_simp

/-! ## Before the last region -/

/-- The output bias as a one-row matrix. -/
theorem stretch4_v91 : after (hostOps4 (F := Ideal)) W (Proc.devRef .tc main_v91)
    = rowOfO (W (Proc.devRef .tc main_arg7)) := by
  after_results_simp
  rfl

theorem stretch4_keep_v90 : after (hostOps4 (F := Ideal)) W (Proc.devRef .tc main_v90)
    = W (Proc.devRef .tc main_v90) := by
  after_results_simp

theorem stretch4_keep_arg6 : after (hostOps4 (F := Ideal)) W (Proc.devRef .tc main_arg6)
    = W (Proc.devRef .tc main_arg6) := by
  after_results_simp

end Cert.Gcn

end
-- ==== Proof.KernelChain.lean ====
/-
  The kernel program's result buffer, followed backwards through its run. The run's segment boundaries alternate host
  stretches and matrix-product regions; a region replaces its result array by `max(X·W + b, 0)` of its three operand
  arrays and leaves every other buffer alone, a host stretch computes the next region's operands from live buffers.
  Reading the boundaries in order from the launch memory gives the result as the function `kerOut` of the arguments.
-/
import proofs.«131948_j10531259810641_2_alg».proof.Proof.Region0
import proofs.«131948_j10531259810641_2_alg».proof.Proof.Region1
import proofs.«131948_j10531259810641_2_alg».proof.Proof.Region2
import proofs.«131948_j10531259810641_2_alg».proof.Proof.Region3
import proofs.«131948_j10531259810641_2_alg».proof.Proof.Region4
import proofs.«131948_j10531259810641_2_alg».proof.Proof.HostStretch
import proofs.«131948_j10531259810641_2_alg».proof.Proof.Programs

set_option maxRecDepth 16384

noncomputable section

namespace Cert.KernelIdeal.Chain

open Cert.KernelIdeal Cert.KernelIdeal.Gen Idealize.ShloMosaic Idealize.ShloMosaic.TcCoe Idealize.SL.Sem
open Cert.Gcn (srcOf dstOf kerNorm rowOf rowOfO wOf bOf aggOf kerH0 kerLayer kerOut h_slW0 h_slW1 h_slW2 h_slB0 h_slB1 h_slB2)

variable (m : (ℓ : Loc nD τ sig) → Buf (Elt Ideal) ℓ) (ρ : Dev nD → PrngReg) (c : Dev nD)

/-- The launch contents of a buffer. -/
abbrev av (b : Ref sig .tc) : Buf (Elt Ideal) ((c : Thread nD τ).loc b) := m ((c : Thread nD τ).loc b)

/-! ## Before the first region -/

theorem w3_v3 : W3 m ρ c (Proc.devRef .tc main_v3) = srcOf (av m c main_arg1) := Cert.Gcn.prologue_v3 (W0 m ρ c)
theorem w3_v6 : W3 m ρ c (Proc.devRef .tc main_v6) = dstOf (av m c main_arg1) := Cert.Gcn.prologue_v6 (W0 m ρ c)
theorem w3_v31 : W3 m ρ c (Proc.devRef .tc main_v31) = kerNorm (av m c main_arg1) := Cert.Gcn.prologue_v31 (W0 m ρ c)
theorem w3_v32 : W3 m ρ c (Proc.devRef .tc main_v32) = rowOf (av m c main_arg3) := Cert.Gcn.prologue_v32 (W0 m ρ c)
theorem w3_arg0 : W3 m ρ c (Proc.devRef .tc main_arg0) = (av m c main_arg0) := Cert.Gcn.prologue_arg0 (W0 m ρ c)
theorem w3_arg2 : W3 m ρ c (Proc.devRef .tc main_arg2) = (av m c main_arg2) := Cert.Gcn.prologue_arg2 (W0 m ρ c)
theorem w3_arg4 : W3 m ρ c (Proc.devRef .tc main_arg4) = (av m c main_arg4) := Cert.Gcn.prologue_arg4 (W0 m ρ c)
theorem w3_arg5 : W3 m ρ c (Proc.devRef .tc main_arg5) = (av m c main_arg5) := Cert.Gcn.prologue_arg5 (W0 m ρ c)
theorem w3_arg6 : W3 m ρ c (Proc.devRef .tc main_arg6) = (av m c main_arg6) := Cert.Gcn.prologue_arg6 (W0 m ρ c)
theorem w3_arg7 : W3 m ρ c (Proc.devRef .tc main_arg7) = (av m c main_arg7) := Cert.Gcn.prologue_arg7 (W0 m ρ c)

/-! ## Region 0: the input projection -/

/-- The features after the input projection. -/
abbrev H0 : Cert.Gcn.SNK.Idx → EReal := kerH0 (av m c main_arg0) (av m c main_arg2) (av m c main_arg3)

theorem w4_v33 : W4 m ρ c (Proc.devRef .tc main_v33) = H0 m c := by
  refine (W4_arr m ρ c 3).trans ((Cert.KernelIdeal.Region0.final (V3 m ρ) c).trans ?_)
  show Cert.Gcn.relu _ (Cert.Gcn.dense (W3 m ρ c (Proc.devRef .tc main_arg0)) (W3 m ρ c (Proc.devRef .tc main_arg2)) (W3 m ρ c (Proc.devRef .tc main_v32))) = _
  rw [w3_arg0, w3_arg2, w3_v32]
  rfl
theorem w4_v3' : W4 m ρ c (Proc.devRef .tc main_v3) = srcOf (av m c main_arg1) := (W4_of_ne m ρ c main_v3 (by decide)).trans (w3_v3 m ρ c)
theorem w4_v6' : W4 m ρ c (Proc.devRef .tc main_v6) = dstOf (av m c main_arg1) := (W4_of_ne m ρ c main_v6 (by decide)).trans (w3_v6 m ρ c)
theorem w4_v31' : W4 m ρ c (Proc.devRef .tc main_v31) = kerNorm (av m c main_arg1) := (W4_of_ne m ρ c main_v31 (by decide)).trans (w3_v31 m ρ c)
theorem w4_arg4' : W4 m ρ c (Proc.devRef .tc main_arg4) = (av m c main_arg4) := (W4_of_ne m ρ c main_arg4 (by decide)).trans (w3_arg4 m ρ c)
theorem w4_arg5' : W4 m ρ c (Proc.devRef .tc main_arg5) = (av m c main_arg5) := (W4_of_ne m ρ c main_arg5 (by decide)).trans (w3_arg5 m ρ c)
theorem w4_arg6' : W4 m ρ c (Proc.devRef .tc main_arg6) = (av m c main_arg6) := (W4_of_ne m ρ c main_arg6 (by decide)).trans (w3_arg6 m ρ c)
theorem w4_arg7' : W4 m ρ c (Proc.devRef .tc main_arg7) = (av m c main_arg7) := (W4_of_ne m ρ c main_arg7 (by decide)).trans (w3_arg7 m ρ c)
/-! ## Stretch 1 and region 1: layer 0 -/

theorem w5_v46 : W5 m ρ c (Proc.devRef .tc main_v46) = aggOf (H0 m c) (srcOf (av m c main_arg1)) (dstOf (av m c main_arg1)) (kerNorm (av m c main_arg1)) := by
  refine (Cert.Gcn.stretch1_v46 (W4 m ρ c)).trans ?_
  rw [w4_v33, w4_v3', w4_v6', w4_v31']
theorem w5_v48 : W5 m ρ c (Proc.devRef .tc main_v48) = wOf ![0, 0, 0] h_slW0 (av m c main_arg4) := by
  refine (Cert.Gcn.stretch1_v48 (W4 m ρ c)).trans ?_
  rw [w4_arg4']
theorem w5_v51 : W5 m ρ c (Proc.devRef .tc main_v51) = rowOf (bOf ![0, 0] h_slB0 (av m c main_arg5)) := by
  refine (Cert.Gcn.stretch1_v51 (W4 m ρ c)).trans ?_
  rw [w4_arg5']
theorem w5_v3' : W5 m ρ c (Proc.devRef .tc main_v3) = srcOf (av m c main_arg1) := (Cert.Gcn.stretch1_keep_v3 (W4 m ρ c)).trans (w4_v3' m ρ c)
theorem w5_v6' : W5 m ρ c (Proc.devRef .tc main_v6) = dstOf (av m c main_arg1) := (Cert.Gcn.stretch1_keep_v6 (W4 m ρ c)).trans (w4_v6' m ρ c)
theorem w5_v31' : W5 m ρ c (Proc.devRef .tc main_v31) = kerNorm (av m c main_arg1) := (Cert.Gcn.stretch1_keep_v31 (W4 m ρ c)).trans (w4_v31' m ρ c)
theorem w5_arg4' : W5 m ρ c (Proc.devRef .tc main_arg4) = (av m c main_arg4) := (Cert.Gcn.stretch1_keep_arg4 (W4 m ρ c)).trans (w4_arg4' m ρ c)
theorem w5_arg5' : W5 m ρ c (Proc.devRef .tc main_arg5) = (av m c main_arg5) := (Cert.Gcn.stretch1_keep_arg5 (W4 m ρ c)).trans (w4_arg5' m ρ c)
theorem w5_arg6' : W5 m ρ c (Proc.devRef .tc main_arg6) = (av m c main_arg6) := (Cert.Gcn.stretch1_keep_arg6 (W4 m ρ c)).trans (w4_arg6' m ρ c)
theorem w5_arg7' : W5 m ρ c (Proc.devRef .tc main_arg7) = (av m c main_arg7) := (Cert.Gcn.stretch1_keep_arg7 (W4 m ρ c)).trans (w4_arg7' m ρ c)

/-- The features after layer 0. -/
abbrev H1 : Cert.Gcn.SNK.Idx → EReal := kerLayer (H0 m c) (wOf ![0, 0, 0] h_slW0 (av m c main_arg4)) (bOf ![0, 0] h_slB0 (av m c main_arg5)) (av m c main_arg1) (kerNorm (av m c main_arg1))

theorem w6_v52 : W6 m ρ c (Proc.devRef .tc main_v52) = H1 m c := by
  refine (W6_arr m ρ c 3).trans ((Cert.KernelIdeal.Region1.final (V5 m ρ) c).trans ?_)
  show Cert.Gcn.relu _ (Cert.Gcn.dense (W5 m ρ c (Proc.devRef .tc main_v46)) (W5 m ρ c (Proc.devRef .tc main_v48)) (W5 m ρ c (Proc.devRef .tc main_v51))) = _
  rw [w5_v46, w5_v48, w5_v51]
  rfl
theorem w6_v3' : W6 m ρ c (Proc.devRef .tc main_v3) = srcOf (av m c main_arg1) := (W6_of_ne m ρ c main_v3 (by decide)).trans (w5_v3' m ρ c)
theorem w6_v6' : W6 m ρ c (Proc.devRef .tc main_v6) = dstOf (av m c main_arg1) := (W6_of_ne m ρ c main_v6 (by decide)).trans (w5_v6' m ρ c)
theorem w6_v31' : W6 m ρ c (Proc.devRef .tc main_v31) = kerNorm (av m c main_arg1) := (W6_of_ne m ρ c main_v31 (by decide)).trans (w5_v31' m ρ c)
theorem w6_arg4' : W6 m ρ c (Proc.devRef .tc main_arg4) = (av m c main_arg4) := (W6_of_ne m ρ c main_arg4 (by decide)).trans (w5_arg4' m ρ c)
theorem w6_arg5' : W6 m ρ c (Proc.devRef .tc main_arg5) = (av m c main_arg5) := (W6_of_ne m ρ c main_arg5 (by decide)).trans (w5_arg5' m ρ c)
theorem w6_arg6' : W6 m ρ c (Proc.devRef .tc main_arg6) = (av m c main_arg6) := (W6_of_ne m ρ c main_arg6 (by decide)).trans (w5_arg6' m ρ c)
theorem w6_arg7' : W6 m ρ c (Proc.devRef .tc main_arg7) = (av m c main_arg7) := (W6_of_ne m ρ c main_arg7 (by decide)).trans (w5_arg7' m ρ c)

/-! ## Stretch 2 and region 2: layer 1 -/

theorem w7_v65 : W7 m ρ c (Proc.devRef .tc main_v65) = aggOf (H1 m c) (srcOf (av m c main_arg1)) (dstOf (av m c main_arg1)) (kerNorm (av m c main_arg1)) := by
  refine (Cert.Gcn.stretch2_v65 (W6 m ρ c)).trans ?_
  rw [w6_v52, w6_v3', w6_v6', w6_v31']
theorem w7_v67 : W7 m ρ c (Proc.devRef .tc main_v67) = wOf ![1, 0, 0] h_slW1 (av m c main_arg4) := by
  refine (Cert.Gcn.stretch2_v67 (W6 m ρ c)).trans ?_
  rw [w6_arg4']
theorem w7_v70 : W7 m ρ c (Proc.devRef .tc main_v70) = rowOf (bOf ![1, 0] h_slB1 (av m c main_arg5)) := by
  refine (Cert.Gcn.stretch2_v70 (W6 m ρ c)).trans ?_
  rw [w6_arg5']
theorem w7_v3' : W7 m ρ c (Proc.devRef .tc main_v3) = srcOf (av m c main_arg1) := (Cert.Gcn.stretch2_keep_v3 (W6 m ρ c)).trans (w6_v3' m ρ c)
theorem w7_v6' : W7 m ρ c (Proc.devRef .tc main_v6) = dstOf (av m c main_arg1) := (Cert.Gcn.stretch2_keep_v6 (W6 m ρ c)).trans (w6_v6' m ρ c)
theorem w7_v31' : W7 m ρ c (Proc.devRef .tc main_v31) = kerNorm (av m c main_arg1) := (Cert.Gcn.stretch2_keep_v31 (W6 m ρ c)).trans (w6_v31' m ρ c)
theorem w7_arg4' : W7 m ρ c (Proc.devRef .tc main_arg4) = (av m c main_arg4) := (Cert.Gcn.stretch2_keep_arg4 (W6 m ρ c)).trans (w6_arg4' m ρ c)
theorem w7_arg5' : W7 m ρ c (Proc.devRef .tc main_arg5) = (av m c main_arg5) := (Cert.Gcn.stretch2_keep_arg5 (W6 m ρ c)).trans (w6_arg5' m ρ c)
theorem w7_arg6' : W7 m ρ c (Proc.devRef .tc main_arg6) = (av m c main_arg6) := (Cert.Gcn.stretch2_keep_arg6 (W6 m ρ c)).trans (w6_arg6' m ρ c)
theorem w7_arg7' : W7 m ρ c (Proc.devRef .tc main_arg7) = (av m c main_arg7) := (Cert.Gcn.stretch2_keep_arg7 (W6 m ρ c)).trans (w6_arg7' m ρ c)

/-- The features after layer 1. -/
abbrev H2 : Cert.Gcn.SNK.Idx → EReal := kerLayer (H1 m c) (wOf ![1, 0, 0] h_slW1 (av m c main_arg4)) (bOf ![1, 0] h_slB1 (av m c main_arg5)) (av m c main_arg1) (kerNorm (av m c main_arg1))

theorem w8_v71 : W8 m ρ c (Proc.devRef .tc main_v71) = H2 m c := by
  refine (W8_arr m ρ c 3).trans ((Cert.KernelIdeal.Region2.final (V7 m ρ) c).trans ?_)
  show Cert.Gcn.relu _ (Cert.Gcn.dense (W7 m ρ c (Proc.devRef .tc main_v65)) (W7 m ρ c (Proc.devRef .tc main_v67)) (W7 m ρ c (Proc.devRef .tc main_v70))) = _
  rw [w7_v65, w7_v67, w7_v70]
  rfl
theorem w8_v3' : W8 m ρ c (Proc.devRef .tc main_v3) = srcOf (av m c main_arg1) := (W8_of_ne m ρ c main_v3 (by decide)).trans (w7_v3' m ρ c)
theorem w8_v6' : W8 m ρ c (Proc.devRef .tc main_v6) = dstOf (av m c main_arg1) := (W8_of_ne m ρ c main_v6 (by decide)).trans (w7_v6' m ρ c)
theorem w8_v31' : W8 m ρ c (Proc.devRef .tc main_v31) = kerNorm (av m c main_arg1) := (W8_of_ne m ρ c main_v31 (by decide)).trans (w7_v31' m ρ c)
theorem w8_arg4' : W8 m ρ c (Proc.devRef .tc main_arg4) = (av m c main_arg4) := (W8_of_ne m ρ c main_arg4 (by decide)).trans (w7_arg4' m ρ c)
theorem w8_arg5' : W8 m ρ c (Proc.devRef .tc main_arg5) = (av m c main_arg5) := (W8_of_ne m ρ c main_arg5 (by decide)).trans (w7_arg5' m ρ c)
theorem w8_arg6' : W8 m ρ c (Proc.devRef .tc main_arg6) = (av m c main_arg6) := (W8_of_ne m ρ c main_arg6 (by decide)).trans (w7_arg6' m ρ c)
theorem w8_arg7' : W8 m ρ c (Proc.devRef .tc main_arg7) = (av m c main_arg7) := (W8_of_ne m ρ c main_arg7 (by decide)).trans (w7_arg7' m ρ c)

/-! ## Stretch 3 and region 3: layer 2 -/

theorem w9_v84 : W9 m ρ c (Proc.devRef .tc main_v84) = aggOf (H2 m c) (srcOf (av m c main_arg1)) (dstOf (av m c main_arg1)) (kerNorm (av m c main_arg1)) := by
  refine (Cert.Gcn.stretch3_v84 (W8 m ρ c)).trans ?_
  rw [w8_v71, w8_v3', w8_v6', w8_v31']
theorem w9_v86 : W9 m ρ c (Proc.devRef .tc main_v86) = wOf ![2, 0, 0] h_slW2 (av m c main_arg4) := by
  refine (Cert.Gcn.stretch3_v86 (W8 m ρ c)).trans ?_
  rw [w8_arg4']
theorem w9_v89 : W9 m ρ c (Proc.devRef .tc main_v89) = rowOf (bOf ![2, 0] h_slB2 (av m c main_arg5)) := by
  refine (Cert.Gcn.stretch3_v89 (W8 m ρ c)).trans ?_
  rw [w8_arg5']
theorem w9_v3' : W9 m ρ c (Proc.devRef .tc main_v3) = srcOf (av m c main_arg1) := (Cert.Gcn.stretch3_keep_v3 (W8 m ρ c)).trans (w8_v3' m ρ c)
theorem w9_v6' : W9 m ρ c (Proc.devRef .tc main_v6) = dstOf (av m c main_arg1) := (Cert.Gcn.stretch3_keep_v6 (W8 m ρ c)).trans (w8_v6' m ρ c)
theorem w9_v31' : W9 m ρ c (Proc.devRef .tc main_v31) = kerNorm (av m c main_arg1) := (Cert.Gcn.stretch3_keep_v31 (W8 m ρ c)).trans (w8_v31' m ρ c)
theorem w9_arg4' : W9 m ρ c (Proc.devRef .tc main_arg4) = (av m c main_arg4) := (Cert.Gcn.stretch3_keep_arg4 (W8 m ρ c)).trans (w8_arg4' m ρ c)
theorem w9_arg5' : W9 m ρ c (Proc.devRef .tc main_arg5) = (av m c main_arg5) := (Cert.Gcn.stretch3_keep_arg5 (W8 m ρ c)).trans (w8_arg5' m ρ c)
theorem w9_arg6' : W9 m ρ c (Proc.devRef .tc main_arg6) = (av m c main_arg6) := (Cert.Gcn.stretch3_keep_arg6 (W8 m ρ c)).trans (w8_arg6' m ρ c)
theorem w9_arg7' : W9 m ρ c (Proc.devRef .tc main_arg7) = (av m c main_arg7) := (Cert.Gcn.stretch3_keep_arg7 (W8 m ρ c)).trans (w8_arg7' m ρ c)

/-- The features after layer 2. -/
abbrev H3 : Cert.Gcn.SNK.Idx → EReal := kerLayer (H2 m c) (wOf ![2, 0, 0] h_slW2 (av m c main_arg4)) (bOf ![2, 0] h_slB2 (av m c main_arg5)) (av m c main_arg1) (kerNorm (av m c main_arg1))

theorem w10_v90 : W10 m ρ c (Proc.devRef .tc main_v90) = H3 m c := by
  refine (W10_arr m ρ c 3).trans ((Cert.KernelIdeal.Region3.final (V9 m ρ) c).trans ?_)
  show Cert.Gcn.relu _ (Cert.Gcn.dense (W9 m ρ c (Proc.devRef .tc main_v84)) (W9 m ρ c (Proc.devRef .tc main_v86)) (W9 m ρ c (Proc.devRef .tc main_v89))) = _
  rw [w9_v84, w9_v86, w9_v89]
  rfl
theorem w10_v3' : W10 m ρ c (Proc.devRef .tc main_v3) = srcOf (av m c main_arg1) := (W10_of_ne m ρ c main_v3 (by decide)).trans (w9_v3' m ρ c)
theorem w10_v6' : W10 m ρ c (Proc.devRef .tc main_v6) = dstOf (av m c main_arg1) := (W10_of_ne m ρ c main_v6 (by decide)).trans (w9_v6' m ρ c)
theorem w10_v31' : W10 m ρ c (Proc.devRef .tc main_v31) = kerNorm (av m c main_arg1) := (W10_of_ne m ρ c main_v31 (by decide)).trans (w9_v31' m ρ c)
theorem w10_arg4' : W10 m ρ c (Proc.devRef .tc main_arg4) = (av m c main_arg4) := (W10_of_ne m ρ c main_arg4 (by decide)).trans (w9_arg4' m ρ c)
theorem w10_arg5' : W10 m ρ c (Proc.devRef .tc main_arg5) = (av m c main_arg5) := (W10_of_ne m ρ c main_arg5 (by decide)).trans (w9_arg5' m ρ c)
theorem w10_arg6' : W10 m ρ c (Proc.devRef .tc main_arg6) = (av m c main_arg6) := (W10_of_ne m ρ c main_arg6 (by decide)).trans (w9_arg6' m ρ c)
theorem w10_arg7' : W10 m ρ c (Proc.devRef .tc main_arg7) = (av m c main_arg7) := (W10_of_ne m ρ c main_arg7 (by decide)).trans (w9_arg7' m ρ c)

/-! ## The output head -/

theorem w11_v91 : W11 m ρ c (Proc.devRef .tc main_v91) = rowOfO (av m c main_arg7) :=
  (Cert.Gcn.stretch4_v91 (W10 m ρ c)).trans (by rw [w10_arg7'])
theorem w11_v90 : W11 m ρ c (Proc.devRef .tc main_v90) = H3 m c :=
  (Cert.Gcn.stretch4_keep_v90 (W10 m ρ c)).trans (w10_v90 m ρ c)
theorem w11_arg6 : W11 m ρ c (Proc.devRef .tc main_arg6) = (av m c main_arg6) :=
  (Cert.Gcn.stretch4_keep_arg6 (W10 m ρ c)).trans (w10_arg6' m ρ c)

/-- THE RESULT: the last boundary's contents at the result buffer are `kerOut` of the arguments. -/
theorem w12_v92 : W12 m ρ c (Proc.devRef .tc main_v92)
    = kerOut (av m c main_arg0) (av m c main_arg1) (av m c main_arg2) (av m c main_arg3) (av m c main_arg4) (av m c main_arg5) (av m c main_arg6) (av m c main_arg7) := by
  refine (W12_arr m ρ c 3).trans ((Cert.KernelIdeal.Region4.final (V11 m ρ) c).trans ?_)
  show Cert.Gcn.dense (W11 m ρ c (Proc.devRef .tc main_v90)) (W11 m ρ c (Proc.devRef .tc main_arg6)) (W11 m ρ c (Proc.devRef .tc main_v91)) = _
  rw [w11_v90, w11_arg6, w11_v91]
  rfl

end Cert.KernelIdeal.Chain

end
-- ==== Proof.RefValue.lean ====
/-
  The reference program's result, read as a function of its eight arguments: the composed term its run ends at is,
  piece for piece, the input projection, three project-then-aggregate layers and the output projection of `refOut`.
-/
import proofs.«131948_j10531259810641_2_alg».proof.Proof.RefRun
import proofs.«131948_j10531259810641_2_alg».proof.Proof.Programs

noncomputable section

open scoped BigOperators

namespace Cert.Gcn

open Idealize.ShloMosaic Idealize.ShloMosaic.ValueIdx
open Cert.ReferenceIdeal Idealize.ShloMosaic.TcCoe Idealize.SL.Sem Idealize.ShloMosaic.StableHlo

set_option maxRecDepth 100000 in
set_option maxHeartbeats 4000000 in
/-- The composed term of the reference's run is `refOut` of the arguments' launch contents: every named piece of
    `refOut` (edge rows with self-loops, index wrap, float in-degree, normalisation weights, matrix products, bias rows,
    rectifier, aggregation, parameter slices) is by definition the corresponding sub-term, at the same literal shapes
    and dimension numbers, so the two sides agree by unfolding alone. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v102 (F := Ideal) m c
      = Cert.Gcn.refOut (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5))
          (m ((c.tc : Thread _ _).loc Cert.ReferenceIdeal.main_arg6)) (m ((c.tc : Thread _ _).loc Cert.ReferenceIdeal.main_arg7)) := by
  unfold Cert.ReferenceIdeal.ValueP.res_main_v102
  rfl

/-- The reference's run, re-posted with its result as `refOut` of the arguments: every weakly fair execution
    terminates with the result buffer at `refOut` of the arguments' launch contents and the arguments unchanged. -/
theorem run_refOut (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread nD τ).loc main_v102)
        = Cert.Gcn.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run Cert.ReferenceIdeal.defs _ _).mono (fun _ h c => ⟨(h c).1.trans (res_eq m c), (h c).2⟩)
    (Cert.ReferenceIdeal.ValueP.run (F := Ideal) m ρ)

end Cert.Gcn

end
-- ==== Proof.AggLinear.lean ====
/-
  Aggregation over the edges of a graph commutes with a dense map on the feature axis.

  One aggregation adds, into row `tgt e` of a matrix, the row `src e` of `h` scaled by a weight `nrm e`, for every
  edge `e`. Entry `(r, c)` of the result is therefore `∑_{e → r} h[src e, c] · nrm e`. Applying `X ↦ X·W` before or
  after gives the same matrix as soon as all entries are real numbers: both are
  `∑_{e → r} ∑_q h[src e, q] · W[q, c] · nrm e`, in the two orders of summation. Over the extended reals the identity
  needs real entries, since multiplication does not distribute over addition at the infinities.
-/
import proofs.«131948_j10531259810641_2_alg».proof.Proof.Spec
import Idealize.ShloMosaic.PureOps.Ideal.Laws
import Idealize.ShloMosaic.Lib.ValueIdx

noncomputable section

open scoped BigOperators

namespace Cert.Gcn

open Idealize.ShloMosaic Idealize.ShloMosaic.ValueIdx

/-! ## Real entries stay real -/

/-- Real entries stay real. -/
theorem isReal_add {x y : EReal} : IsReal x → IsReal y → IsReal (x + y) := by
  rintro ⟨a, rfl⟩ ⟨b, rfl⟩; exact ⟨a + b, (EReal.coe_add a b).symm⟩

theorem isReal_mul {x y : EReal} : IsReal x → IsReal y → IsReal (x * y) := by
  rintro ⟨a, rfl⟩ ⟨b, rfl⟩; exact ⟨a * b, (EReal.coe_mul a b).symm⟩

theorem isReal_max {x y : EReal} : IsReal x → IsReal y → IsReal (max x y) := by
  intro hx hy
  rcases le_total x y with h | h
  · rw [max_eq_right h]; exact hy
  · rw [max_eq_left h]; exact hx

private theorem isReal_zero : IsReal 0 := ⟨0, EReal.coe_zero.symm⟩

theorem isReal_sum {ι : Type} (s : Finset ι) (f : ι → EReal) : (∀ i ∈ s, IsReal (f i)) → IsReal (∑ i ∈ s, f i) := by
  classical
  induction s using Finset.induction_on with
  | empty => intro _; rw [Finset.sum_empty]; exact isReal_zero
  | insert a s ha ih =>
    intro h
    rw [Finset.sum_insert ha]
    exact isReal_add (h a (Finset.mem_insert_self a s)) (ih fun i hi => h i (Finset.mem_insert_of_mem hi))

theorem allReal_mm {n k o : Nat} {X : Mat n k} {W : Mat k o} : AllReal X → AllReal W → AllReal (mm X W) :=
  fun hX hW i => isReal_sum _ _ fun q _ => isReal_mul (hX _) (hW _)

theorem allReal_dense {n k o : Nat} {X : Mat n k} {W : Mat k o} {b : Mat 1 o} :
    AllReal X → AllReal W → AllReal b → AllReal (dense X W b) :=
  fun hX hW hb i => isReal_add (allReal_mm hX hW i) (hb _)

theorem allReal_relu {n k : Nat} {z : EReal} {X : Mat n k} : IsReal z → AllReal X → AllReal (relu z X) :=
  fun hz hX i => isReal_max (hX i) hz

theorem allReal_agg {N M K : Nat} (d : ScatterDims ⟨2, ![N, K]⟩ ⟨2, ![M, 1]⟩ ⟨2, ![M, K]⟩)
    (g : GatherDims ⟨2, ![N, K]⟩ ⟨2, ![M, 1]⟩ ⟨2, ![M, K]⟩)
    {z : EReal} {v : Mat N K} (ridx cidx : IVec ⟨2, ![M, 1]⟩ 32) {nrm : Fin M → EReal} :
    IsReal z → AllReal v → AllReal nrm → AllReal (agg d g z v ridx cidx nrm) :=
  fun hz hv hn i => isReal_add hz (isReal_sum _ _ fun j _ => isReal_mul (hv _) (hn _))

/-! ## Where the row scatter lands, and what the row gather reads -/

section Structure
variable {N M K : Nat}

private theorem rowScatter_start0 (wf : ScatterDims.WF ⟨2, ![N, K]⟩ ⟨2, ![M, 1]⟩ ⟨2, ![M, K]⟩ [1] [0] [0] 1)
    (cidx : IVec ⟨2, ![M, 1]⟩ 32) (e : Fin M) (f : Fin K) :
    (rowScatter N M K wf).start (ix2 e f) cidx 0 = (cidx (ix2 e 0)).toInt := by
  unfold ScatterDims.start
  rw [dif_pos (show (0 : Fin 2) ∈ (rowScatter N M K wf).scatterDimsToOperandDims from List.mem_singleton.mpr rfl)]
  have hsi : (rowScatter N M K wf).siIdx (ix2 e f) ⟨List.idxOf (0 : Fin 2) (rowScatter N M K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

private theorem rowScatter_start1 (wf : ScatterDims.WF ⟨2, ![N, K]⟩ ⟨2, ![M, 1]⟩ ⟨2, ![M, K]⟩ [1] [0] [0] 1)
    (cidx : IVec ⟨2, ![M, 1]⟩ 32) (j : (⟨2, ![M, K]⟩ : Shape).Idx) :
    (rowScatter N M K wf).start j cidx 1 = 0 := by
  unfold ScatterDims.start
  have h1 : (1 : Fin 2) ∉ (rowScatter N M K wf).scatterDimsToOperandDims :=
    (show (1 : Fin 2) ∉ ([0] : List (Fin 2)) by decide)
  rw [dif_neg h1]

private theorem rowScatter_window0 (wf : ScatterDims.WF ⟨2, ![N, K]⟩ ⟨2, ![M, 1]⟩ ⟨2, ![M, K]⟩ [1] [0] [0] 1)
    (j : (⟨2, ![M, K]⟩ : Shape).Idx) :
    (rowScatter N M K wf).window j 0 = 0 := by
  unfold ScatterDims.window
  have h0 : (0 : Fin 2) ∉ (rowScatter N M K wf).sKept :=
    (show (0 : Fin 2) ∉ (List.finRange 2).filter (· ∉ ([0] : List (Fin 2))) by decide)
  rw [dif_neg h0]

private theorem rowScatter_window1 (wf : ScatterDims.WF ⟨2, ![N, K]⟩ ⟨2, ![M, 1]⟩ ⟨2, ![M, K]⟩ [1] [0] [0] 1)
    (e : Fin M) (f : Fin K) :
    (rowScatter N M K wf).window (ix2 e f) 1 = f.val := by
  unfold ScatterDims.window
  have h1 : (1 : Fin 2) ∈ (rowScatter N M K wf).sKept :=
    (show (1 : Fin 2) ∈ (List.finRange 2).filter (· ∉ ([0] : List (Fin 2))) by decide)
  rw [dif_pos h1]
  rfl

/-- Where the row scatter sends update (e, f): to row idx[e] (read signed; dropped unless 0 ≤ idx[e] < N), same feature f. -/
theorem rowScatter_resultIdx? {N M K : Nat} (wf : ScatterDims.WF ⟨2, ![N, K]⟩ ⟨2, ![M, 1]⟩ ⟨2, ![M, K]⟩ [1] [0] [0] 1)
    (cidx : IVec ⟨2, ![M, 1]⟩ 32) (e : Fin M) (f : Fin K) (i : (⟨2, ![N, K]⟩ : Shape).Idx) :
    (rowScatter N M K wf).resultIdx? (ix2 e f) cidx = some i ↔ ((cidx (ix2 e 0)).toInt = ((row i).val : ℤ) ∧ col i = f) := by
  have s0 := rowScatter_start0 wf cidx e f
  have s1 := rowScatter_start1 wf cidx (ix2 e f)
  have w0 := rowScatter_window0 wf (ix2 e f)
  have w1 := rowScatter_window1 wf e f
  unfold ScatterDims.resultIdx?
  constructor
  · intro h
    split at h
    · rename_i hc
      injection h with hi
      subst hi
      refine ⟨?_, Fin.ext ?_⟩
      · show (cidx (ix2 e 0)).toInt = (((rowScatter N M K wf).start (ix2 e f) cidx 0
            + ((rowScatter N M K wf).window (ix2 e f) 0 : ℕ)).toNat : ℤ)
        have h0 := (hc 0).1
        rw [s0, w0] at h0 ⊢
        omega
      · show ((rowScatter N M K wf).start (ix2 e f) cidx 1
            + ((rowScatter N M K wf).window (ix2 e f) 1 : ℕ)).toNat = f.val
        rw [s1, w1]
        omega
    · exact absurd h (by simp)
  · rintro ⟨h1, h2⟩
    have hc : ∀ a, 0 ≤ (rowScatter N M K wf).start (ix2 e f) cidx a + (rowScatter N M K wf).window (ix2 e f) a ∧
        (rowScatter N M K wf).start (ix2 e f) cidx a + (rowScatter N M K wf).window (ix2 e f) a
          < (⟨2, ![N, K]⟩ : Shape).size a := by
      rw [Fin.forall_fin_two]
      refine ⟨?_, ?_⟩
      · rw [s0, w0, h1]
        have := (row i).isLt
        show _ ∧ _ < ((N : ℕ) : ℤ)
        omega
      · rw [s1, w1]
        have := f.isLt
        show _ ∧ _ < ((K : ℕ) : ℤ)
        omega
    rw [dif_pos hc]
    congr 1
    funext a
    refine Fin.ext ?_
    match a with
    | ⟨0, _⟩ =>
      show ((rowScatter N M K wf).start (ix2 e f) cidx 0
            + ((rowScatter N M K wf).window (ix2 e f) 0 : ℕ)).toNat = (row i).val
      rw [s0, w0, h1]
      omega
    | ⟨1, _⟩ =>
      show ((rowScatter N M K wf).start (ix2 e f) cidx 1
            + ((rowScatter N M K wf).window (ix2 e f) 1 : ℕ)).toNat = (col i).val
      rw [s1, w1, h2]
      omega

private theorem rowGather_start1 (wf : GatherDims.WF ⟨2, ![N, K]⟩ ⟨2, ![M, 1]⟩ ⟨2, ![M, K]⟩ [1] [0] [] [0] [] 1 ![1, K])
    (ridx : IVec ⟨2, ![M, 1]⟩ 32) (j : (⟨2, ![M, K]⟩ : Shape).Idx) :
    (rowGather N M K wf).start j ridx 1 = 0 := by
  unfold GatherDims.start
  have h1 : (1 : Fin 2) ∉ (rowGather N M K wf).startIndexMap :=
    (show (1 : Fin 2) ∉ ([0] : List (Fin 2)) by decide)
  rw [dif_neg h1]

private theorem rowGather_offCoord1 (wf : GatherDims.WF ⟨2, ![N, K]⟩ ⟨2, ![M, 1]⟩ ⟨2, ![M, K]⟩ [1] [0] [] [0] [] 1 ![1, K])
    (e : Fin M) (f : Fin K) :
    (rowGather N M K wf).offCoord (ix2 e f) 1 = f.val := by
  unfold GatherDims.offCoord
  have h1 : (1 : Fin 2) ∈ (rowGather N M K wf).sKept :=
    (GatherDims.mem_sKept _ _).mpr ⟨(show (1 : Fin 2) ∉ ([0] : List (Fin 2)) by decide), List.not_mem_nil⟩
  rw [dif_pos h1]
  rfl

/-- The row gather reads, for result (e, f), operand row idx[e] (read signed, clamped into [0, N-1]), same feature f. -/
theorem rowGather_operandIdx {N M K : Nat} (hN : 0 < N)
    (wf : GatherDims.WF ⟨2, ![N, K]⟩ ⟨2, ![M, 1]⟩ ⟨2, ![M, K]⟩ [1] [0] [] [0] [] 1 ![1, K])
    (ridx : IVec ⟨2, ![M, 1]⟩ 32) (e : Fin M) (f : Fin K) :
    (rowGather N M K wf).operandIdx (ix2 e f) ridx = ix2 ⟨min (ridx (ix2 e 0)).toInt.toNat (N - 1), by omega⟩ f := by
  funext a
  refine Fin.ext ?_
  match a with
  | ⟨0, _⟩ =>
    show (rowGather N M K wf).start (ix2 e f) ridx 0 + (rowGather N M K wf).batchCoord (ix2 e f) 0
      + (rowGather N M K wf).offCoord (ix2 e f) 0 = min (ridx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M K wf).startIndexMap from List.mem_singleton.mpr rfl)]
    have hsi : (rowGather N M K wf).siIdx (ix2 e f) ⟨List.idxOf (0 : Fin 2) (rowGather N M K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N M K wf).start (ix2 e f) ridx 1 + (rowGather N M K wf).batchCoord (ix2 e f) 1
      + (rowGather N M K wf).offCoord (ix2 e f) 1 = f.val
    rw [rowGather_start1 wf ridx (ix2 e f), GatherDims.batchCoord_eq_zero _ _ _ List.not_mem_nil,
      rowGather_offCoord1 wf e f]
    omega

end Structure

/-! ## The law -/

/-- The coercion of reals into the extended reals commutes with finite sums. -/
private theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The source row of edge `e`: its index read signed and clamped into `[0, N - 1]`. -/
def aggSrc {N M : Nat} (hN : 0 < N) (ridx : IVec ⟨2, ![M, 1]⟩ 32) (e : Fin M) : Fin N :=
  ⟨min (ridx (ix2 e 0)).toInt.toNat (N - 1), by omega⟩

/-- Entry `(r, c)` of an aggregation from zero: the sum over the edges `e` whose target index is `r` of
    `v[src e, c] · nrm e`. The feature coordinate of an update is forced to `c`, so the sum over update indices
    `(e, f)` collapses to a sum over edges. -/
theorem agg_apply {N M K : Nat} (hN : 0 < N)
    (wfd : ScatterDims.WF ⟨2, ![N, K]⟩ ⟨2, ![M, 1]⟩ ⟨2, ![M, K]⟩ [1] [0] [0] 1)
    (wfg : GatherDims.WF ⟨2, ![N, K]⟩ ⟨2, ![M, 1]⟩ ⟨2, ![M, K]⟩ [1] [0] [] [0] [] 1 ![1, K])
    (v : Mat N K) (ridx cidx : IVec ⟨2, ![M, 1]⟩ 32) (nrm : Fin M → EReal) (r : Fin N) (c : Fin K) :
    agg (rowScatter N M K wfd) (rowGather N M K wfg) 0 v ridx cidx nrm (ix2 r c)
      = ∑ e ∈ Finset.univ.filter (fun e : Fin M => (cidx (ix2 e 0)).toInt = (r.val : ℤ)),
          v (ix2 (aggSrc hN ridx e) c) * nrm e := by
  unfold agg Ideal.hostScatterAdd
  rw [zero_add, Finset.sum_filter, sum_idx2, Finset.sum_filter]
  refine Finset.sum_congr rfl fun e _ => ?_
  have hf : ∀ f : Fin K,
      (if (rowScatter N M K wfd).resultIdx? (ix2 e f) cidx = some (ix2 r c)
        then v ((rowGather N M K wfg).operandIdx (ix2 e f) ridx) * nrm (row (ix2 e f)) else 0)
      = if ((cidx (ix2 e 0)).toInt = (r.val : ℤ) ∧ c = f) then v (ix2 (aggSrc hN ridx e) f) * nrm e else 0 := by
    intro f
    rw [if_congr (rowScatter_resultIdx? wfd cidx e f (ix2 r c)) rfl rfl, rowGather_operandIdx hN wfg ridx e f]
    rfl
  rw [Finset.sum_congr rfl fun f _ => hf f]
  by_cases hP : (cidx (ix2 e 0)).toInt = (r.val : ℤ)
  · simp only [hP, true_and, Finset.sum_ite_eq, Finset.mem_univ, if_true]
  · simp only [hP, false_and, if_false, Finset.sum_const_zero]

/-- THE LAW: for real entries, aggregating the projected rows is projecting the aggregated rows:
    ∑_{e → r} (∑_q h[src e, q]·W[q, c])·nrm e = ∑_q (∑_{e → r} h[src e, q]·nrm e)·W[q, c]. -/
theorem agg_mm_comm {N M K : Nat} (hN : 0 < N)
    (wfd : ScatterDims.WF ⟨2, ![N, K]⟩ ⟨2, ![M, 1]⟩ ⟨2, ![M, K]⟩ [1] [0] [0] 1)
    (wfg : GatherDims.WF ⟨2, ![N, K]⟩ ⟨2, ![M, 1]⟩ ⟨2, ![M, K]⟩ [1] [0] [] [0] [] 1 ![1, K])
    (h : Mat N K) (W : Mat K K) (ridx cidx : IVec ⟨2, ![M, 1]⟩ 32) (nrm : Fin M → EReal)
    (hh : AllReal h) (hW : AllReal W) (hn : AllReal nrm) :
    agg (rowScatter N M K wfd) (rowGather N M K wfg) 0 (mm h W) ridx cidx nrm
      = mm (agg (rowScatter N M K wfd) (rowGather N M K wfg) 0 h ridx cidx nrm) W := by
  funext i
  obtain ⟨r, c, rfl⟩ : ∃ (r : Fin N) (c : Fin K), i = ix2 r c :=
    ⟨row i, col i, by funext d; match d with | ⟨0, _⟩ => rfl | ⟨1, _⟩ => rfl⟩
  -- both sides as sums over the edges into `r` and the contracted feature `q`
  rw [agg_apply hN wfd wfg (mm h W) ridx cidx nrm r c]
  have hR : mm (agg (rowScatter N M K wfd) (rowGather N M K wfg) 0 h ridx cidx nrm) W (ix2 r c)
      = ∑ q : Fin K, (∑ e ∈ Finset.univ.filter (fun e : Fin M => (cidx (ix2 e 0)).toInt = (r.val : ℤ)),
          h (ix2 (aggSrc hN ridx e) q) * nrm e) * W (ix2 q c) := by
    unfold mm
    refine Finset.sum_congr rfl fun q _ => ?_
    rw [agg_apply hN wfd wfg h ridx cidx nrm (row (ix2 r c)) q]
    rfl
  rw [hR]
  have hL : ∀ e : Fin M, mm h W (ix2 (aggSrc hN ridx e) c)
      = ∑ q : Fin K, h (ix2 (aggSrc hN ridx e) q) * W (ix2 q c) := fun e => rfl
  rw [Finset.sum_congr rfl fun e _ => by rw [hL e]]
  -- real witnesses for the entries
  choose h' hh' using hh
  choose W' hW' using hW
  choose n' hn' using hn
  simp only [hh', hW', hn', ← EReal.coe_mul, ← coe_sum]
  -- the identity in the reals: distribute, and exchange the two sums
  refine congrArg _ ?_
  simp only [Finset.sum_mul]
  rw [Finset.sum_comm]
  refine Finset.sum_congr rfl fun q _ => Finset.sum_congr rfl fun e _ => ?_
  ring

end Cert.Gcn

end
-- ==== Proof.DegreeCount.lean ====
/-
  The in-degree of a node, counted two ways.

  An accumulating scatter adds every update into the operand element its result index names, and drops the updates
  whose result index falls outside the operand. With 32-bit words under addition the order in which the updates are
  taken does not matter: the left fold over the updates is the operand element plus the sum of the updates that land
  on it. Scattering ones into zeros therefore counts, at each element, the updates landing there; as long as the
  number of updates is below 2³¹ the word read as a signed integer is that count. The exact real scatter of float
  ones into float zeros is the same count, and the reciprocal square root of a count, guarded by "count > 0", is a
  real number.
-/
import proofs.«131948_j10531259810641_2_alg».proof.Proof.Spec
import Idealize.ShloMosaic.PureOps.Ideal.Laws
import Idealize.ShloMosaic.Lib.ValueIdx
import Idealize.ShloMosaic.Lib.WordArith
import Mathlib.Data.BitVec

noncomputable section

open scoped BigOperators

namespace Cert.Gcn

open Idealize.ShloMosaic Idealize.ShloMosaic.ValueIdx

/-- The fold of the accumulating step over ANY list of update positions: at every element, the starting value plus
    the sum, along the list, of the updates whose result index is that element (an update landing elsewhere, or
    outside the operand, adds zero). Stated for all elements at once, since a step replaces the whole function. -/
theorem foldl_scatter_addi {s si u : Shape} (d : ScatterDims s si u) (idx : IVec si 32) (upd : u.Idx → BitVec 32)
    (L : List (Fin u.numel)) : ∀ (x : s.Idx → BitVec 32) (i : s.Idx),
    L.foldl (fun r n =>
        match d.resultIdx? (u.rowMajor.symm n) idx with
        | some i => fun i' => if i' = i then IntOp.addi (r i) (upd (u.rowMajor.symm n)) else r i'
        | none => r) x i
      = x i + (L.map (fun n => if d.resultIdx? (u.rowMajor.symm n) idx = some i
                                then upd (u.rowMajor.symm n) else 0)).sum := by
  induction L with
  | nil => intro x i; simp
  | cons a L ih =>
    intro x i
    rw [List.foldl_cons, ih]
    simp only [List.map_cons, List.sum_cons]
    cases h : d.resultIdx? (u.rowMajor.symm a) idx with
    | none => simp
    | some k =>
      simp only [IntOp.addi]
      by_cases hik : i = k
      · subst hik; simp [add_assoc]
      · have hne : ¬ (some k = some i) := fun e => hik (Option.some.inj e).symm
        simp [hik, hne]

theorem scatter_addi_apply {s si u : Shape} (d : ScatterDims s si u) (x : s.Idx → BitVec 32) (idx : IVec si 32)
    (upd : u.Idx → BitVec 32) (i : s.Idx) :
    Host.scatter d IntOp.addi x idx upd i
      = x i + ∑ j ∈ Finset.univ.filter (fun j : u.Idx => d.resultIdx? j idx = some i), upd j := by
  unfold Host.scatter
  refine (foldl_scatter_addi d idx upd (List.finRange u.numel) x i).trans ?_
  congr 1
  rw [← Fin.sum_univ_def, Finset.sum_filter]
  exact Equiv.sum_comp u.rowMajor.symm (fun j => if d.resultIdx? j idx = some i then upd j else 0)

/-- Adding the word one as many times as a finite set has elements gives the word of that number. -/
theorem sum_one_word {ι : Type} (S : Finset ι) : (∑ _j ∈ S, (1#32 : BitVec 32)) = BitVec.ofNat 32 S.card := by
  have h1 : (1#32 : BitVec 32) = 1 := rfl
  rw [h1, Finset.sum_const, nsmul_eq_mul, mul_one, BitVec.natCast_eq_ofNat]

theorem degree_int {s si u : Shape} (d : ScatterDims s si u) (hu : u.numel < 2 ^ 31) (idx : IVec si 32) (i : s.Idx) :
    ((((Host.scatter d IntOp.addi (fun _ => 0#32) idx (fun _ => 1#32) i).toInt : ℤ) : ℝ) : EReal)
      = (((Finset.univ.filter (fun j : u.Idx => d.resultIdx? j idx = some i)).card : ℝ) : EReal) := by
  have hcard : (Finset.univ.filter (fun j : u.Idx => d.resultIdx? j idx = some i)).card < 2 ^ 31 :=
    lt_of_le_of_lt ((Finset.card_le_univ _).trans_eq u.card_idx) hu
  have h0 : (0#32 : BitVec 32) = 0 := rfl
  rw [scatter_addi_apply, sum_one_word, h0, zero_add, WordArith.toInt_ofNat_small _ hcard, Int.cast_natCast]

/-- The word 0x3F800000 is the float one: sign 0, exponent field 127 (the bias), fraction 0. -/
theorem ofBits_one_f32 : Ideal.ofBits .f32 0x3F800000#32 = 1 := by
  simp [Ideal.ofBits, Ideal.ieee, -EReal.coe_mul]; norm_num

/-- Adding the extended real one as many times as a finite set has elements gives that number. -/
theorem sum_one_ereal {ι : Type} (S : Finset ι) : (∑ _j ∈ S, (1 : EReal)) = ((S.card : ℝ) : EReal) := by
  classical
  induction S using Finset.induction_on with
  | empty => simp
  | insert a S ha ih =>
    rw [Finset.sum_insert ha, ih, Finset.card_insert_of_notMem ha, Nat.cast_succ, EReal.coe_add, EReal.coe_one,
      add_comm]

theorem degree_float {s si u : Shape} (d : ScatterDims s si u) (idx : IVec si 32) (i : s.Idx) :
    Ideal.hostScatterAdd d (fun _ => Ideal.ofBits .f32 0x00000000#32) idx (fun _ => Ideal.ofBits .f32 0x3F800000#32) i
      = (((Finset.univ.filter (fun j : u.Idx => d.resultIdx? j idx = some i)).card : ℝ) : EReal) := by
  unfold Ideal.hostScatterAdd
  show Ideal.ofBits .f32 0x00000000#32 + ∑ _j ∈ Finset.univ.filter (fun j : u.Idx => d.resultIdx? j idx = some i),
      Ideal.ofBits .f32 0x3F800000#32 = _
  rw [Ideal.ofBits_zero_f32, ofBits_one_f32, zero_add, sum_one_ereal]

theorem dinv_isReal (n : ℕ) :
    IsReal (Scalar.select (FloatOps.cmpf (F := Ideal) (φ := .f32) .ogt (((n : ℝ) : EReal)) (Ideal.ofBits .f32 0x00000000#32))
      (FloatOps.hostUnary (F := Ideal) (φ := .f32) .rsqrt (((n : ℝ) : EReal))) (Ideal.ofBits .f32 0x00000000#32)) := by
  rw [Ideal.ofBits_zero_f32, Ideal.cmpf_def, Ideal.hostUnary_rsqrt_def]
  unfold Scalar.select
  rcases Nat.eq_zero_or_pos n with rfl | hn
  · -- the count is zero: "0 > 0" fails and the guard returns the zero
    refine ⟨0, ?_⟩
    simp [Ideal.cmp]
  · -- the count is positive: either branch is a real number
    have hpos : (0 : ℝ) < (n : ℝ) := Nat.cast_pos.mpr hn
    split
    · refine ⟨(Real.sqrt n)⁻¹, ?_⟩
      show Ideal.rsqrt (((n : ℝ) : EReal)) = _
      show (if (n : ℝ) < 0 then (⊥ : EReal) else if (n : ℝ) = 0 then ⊤ else (((Real.sqrt n)⁻¹ : ℝ) : EReal)) = _
      rw [if_neg (not_lt.mpr hpos.le), if_neg hpos.ne']
    · exact ⟨0, rfl⟩

end Cert.Gcn

end
-- ==== Proof.Equal.lean ====
/-
  The two programs compute the same function on real inputs.

  Each host-side operation is first read as the mathematics it performs: the host's matrix product is the plain
  sum over the contracted axis, a bias broadcast over the rows reads the bias at the column, the rectifier is an
  entrywise maximum with zero, one aggregation is the scatter-add of gathered rows scaled by the edge weights, and
  the in-degree counted with integer ones and converted is the in-degree counted with float ones. With these
  readings a layer of the reference is `max(agg(h·W) + b, 0)` and a layer of the kernel program is
  `max(agg(h)·W + b, 0)`; the two agree as soon as all entries are real, because aggregation over the edges commutes
  with a dense map on the feature axis. Real entries stay real through every layer, so the agreement is carried
  through the input projection, the three layers and the output projection.
-/
import proofs.«131948_j10531259810641_2_alg».proof.Proof.Programs
import proofs.«131948_j10531259810641_2_alg».proof.Proof.AggLinear
import proofs.«131948_j10531259810641_2_alg».proof.Proof.DegreeCount
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gcn

open Idealize.ShloMosaic Idealize.ShloMosaic.ValueIdx

/-! ## The host's matrix products are the plain contraction -/

private theorem dotKK_lhs0 (i : SNK.Idx) (q : dotKK.contr.Idx) : (dotKK.lhsIdx i q 0).val = (i 0).val := by
  unfold DotDims.lhsIdx
  rw [dif_neg (show ¬(0 : Fin SNK.rank) ∈ dotKK.lhsBatch by decide),
    dif_pos (show (0 : Fin SNK.rank) ∈ dotKK.lhsNonContracting by decide)]
  rfl
private theorem dotKK_rhs1 (i : SNK.Idx) (q : dotKK.contr.Idx) : (dotKK.rhsIdx i q 1).val = (i 1).val := by
  unfold DotDims.rhsIdx
  rw [dif_neg (show ¬(1 : Fin SKK.rank) ∈ dotKK.rhsBatch by decide),
    dif_pos (show (1 : Fin SKK.rank) ∈ dotKK.rhsNonContracting by decide)]
  rfl
private theorem dotKO_lhs0 (i : SNO.Idx) (q : dotKO.contr.Idx) : (dotKO.lhsIdx i q 0).val = (i 0).val := by
  unfold DotDims.lhsIdx
  rw [dif_neg (show ¬(0 : Fin SNK.rank) ∈ dotKO.lhsBatch by decide),
    dif_pos (show (0 : Fin SNK.rank) ∈ dotKO.lhsNonContracting by decide)]
  rfl
private theorem dotKO_rhs1 (i : SNO.Idx) (q : dotKO.contr.Idx) : (dotKO.rhsIdx i q 1).val = (i 1).val := by
  unfold DotDims.rhsIdx
  rw [dif_neg (show ¬(1 : Fin SKO.rank) ∈ dotKO.rhsBatch by decide),
    dif_pos (show (1 : Fin SKO.rank) ∈ dotKO.rhsNonContracting by decide)]
  rfl

/-- The host's `[N, 128]·[128, 128]` product is the matrix product: entry `(p, c)` is `∑ q, X[p, q]·W[q, c]`. -/
theorem mmT_eq (X : FVec Ideal SNK .f32) (W : FVec Ideal SKK .f32) :
    mmT X W = mm (n := 100000) (k := 128) (o := 128) X W := by
  funext i
  obtain ⟨p, c, rfl⟩ : ∃ (a : Fin 100000) (b : Fin 128), i = ix2 a b :=
    ⟨row i, col i, by funext d; match d with | ⟨0, _⟩ => rfl | ⟨1, _⟩ => rfl⟩
  unfold mmT
  simp only [Host.dotGeneral]
  refine (Ideal.dotGeneral_apply dotKK none .single X W (ix2 p c)).trans ?_
  rw [← Equiv.sum_comp (contrEquiv1 dotKK 128 rfl rfl).symm]
  refine Finset.sum_congr rfl fun q _ => ?_
  have hq := contrEquiv1_symm_val dotKK 128 rfl rfl q
  have el : dotKK.lhsIdx (ix2 p c) ((contrEquiv1 dotKK 128 rfl rfl).symm q) = ix2 p q := funext fun ax => Fin.ext (by
    match ax with
    | ⟨0, _⟩ => exact dotKK_lhs0 _ _
    | ⟨1, _⟩ => exact (dotKK.lhsIdx_val_of_single rfl _ _).trans hq)
  have er : dotKK.rhsIdx (ix2 p c) ((contrEquiv1 dotKK 128 rfl rfl).symm q) = ix2 q c := funext fun ax => Fin.ext (by
    match ax with
    | ⟨0, _⟩ => exact (dotKK.rhsIdx_val_of_single rfl _ _).trans hq
    | ⟨1, _⟩ => exact dotKK_rhs1 _ _)
  rw [el, er]

/-- The host's `[N, 128]·[128, 64]` product, likewise. -/
theorem mmO_eq (X : FVec Ideal SNK .f32) (W : FVec Ideal SKO .f32) :
    mmO X W = mm (n := 100000) (k := 128) (o := 64) X W := by
  funext i
  obtain ⟨p, c, rfl⟩ : ∃ (a : Fin 100000) (b : Fin 64), i = ix2 a b :=
    ⟨row i, col i, by funext d; match d with | ⟨0, _⟩ => rfl | ⟨1, _⟩ => rfl⟩
  unfold mmO
  simp only [Host.dotGeneral]
  refine (Ideal.dotGeneral_apply dotKO none .single X W (ix2 p c)).trans ?_
  rw [← Equiv.sum_comp (contrEquiv1 dotKO 128 rfl rfl).symm]
  refine Finset.sum_congr rfl fun q _ => ?_
  have hq := contrEquiv1_symm_val dotKO 128 rfl rfl q
  have el : dotKO.lhsIdx (ix2 p c) ((contrEquiv1 dotKO 128 rfl rfl).symm q) = ix2 p q := funext fun ax => Fin.ext (by
    match ax with
    | ⟨0, _⟩ => exact dotKO_lhs0 _ _
    | ⟨1, _⟩ => exact (dotKO.lhsIdx_val_of_single rfl _ _).trans hq)
  have er : dotKO.rhsIdx (ix2 p c) ((contrEquiv1 dotKO 128 rfl rfl).symm q) = ix2 q c := funext fun ax => Fin.ext (by
    match ax with
    | ⟨0, _⟩ => exact (dotKO.rhsIdx_val_of_single rfl _ _).trans hq
    | ⟨1, _⟩ => exact dotKO_rhs1 _ _)
  rw [el, er]

/-! ## Bias rows, the one-row bias matrix, the rectifier -/

/-- The bias repeated on every row reads, at `(r, c)`, the bias at `c`. -/
theorem biasRows_apply (b : FVec Ideal SK .f32) (i : SNK.Idx) : biasRows b i = b (ix1 (col i)) := by
  unfold biasRows
  refine (broadcastInDim_apply _ h_b1KNK _ i (ix2 (0 : Fin 1) (col i)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ h_bK1K b _ (ix1 (col i)) (fun a => match a with
    | ⟨0, _⟩ => by show (i 1).val = if (128 : Nat) = 1 then 0 else (i 1).val; rw [if_neg (by decide)])

theorem biasRowsO_apply (b : FVec Ideal SO .f32) (i : SNO.Idx) : biasRowsO b i = b (ix1 (col i)) := by
  unfold biasRowsO
  refine (broadcastInDim_apply _ h_b1ONO _ i (ix2 (0 : Fin 1) (col i)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ h_bO1O b _ (ix1 (col i)) (fun a => match a with
    | ⟨0, _⟩ => by show (i 1).val = if (64 : Nat) = 1 then 0 else (i 1).val; rw [if_neg (by decide)])

/-- The bias as a one-row matrix reads, at `(0, c)`, the bias at `c`. -/
theorem rowOf_apply (b : FVec Ideal SK .f32) (c : Fin 128) : rowOf b (ix2 (0 : Fin 1) c) = b (ix1 c) := by
  unfold rowOf
  exact shapeCast_a_1a_apply b h_scK1K 0 c

theorem rowOfO_apply (b : FVec Ideal SO .f32) (c : Fin 64) : rowOfO b (ix2 (0 : Fin 1) c) = b (ix1 c) := by
  unfold rowOfO
  exact shapeCast_a_1a_apply b h_scO1O 0 c

/-- Product plus broadcast bias on the host is the dense layer. -/
theorem addf_mmT_biasRows (X : FVec Ideal SNK .f32) (W : FVec Ideal SKK .f32) (b : FVec Ideal SK .f32) :
    addf (mmT X W) (biasRows b) = dense (n := 100000) (k := 128) (o := 128) X W (rowOf b) := by
  funext i
  rw [addf_apply, mmT_eq, biasRows_apply]
  unfold dense
  rw [rowOf_apply]

theorem addf_mmO_biasRowsO (X : FVec Ideal SNK .f32) (W : FVec Ideal SKO .f32) (b : FVec Ideal SO .f32) :
    addf (mmO X W) (biasRowsO b) = dense (n := 100000) (k := 128) (o := 64) X W (rowOfO b) := by
  funext i
  rw [addf_apply, mmO_eq, biasRowsO_apply]
  unfold dense
  rw [rowOfO_apply]

/-- A scalar broadcast to the feature matrix reads the scalar everywhere. -/
theorem zerosNK_apply (i : SNK.Idx) :
    broadcastInDim SNK ![] h_b0NK (constant (F := Ideal) S0 .f32 0x00000000#32) i = z0 :=
  broadcastInDim_apply _ h_b0NK _ i ix0 (fun a => a.elim0)

/-- The host's rectifier is the entrywise maximum with zero. -/
theorem reluT_eq (X : FVec Ideal SNK .f32) : reluT X = relu (n := 100000) (k := 128) z0 X := by
  funext i
  unfold reluT relu
  rw [maximumf_apply, zerosNK_apply]

theorem z0_eq : z0 = 0 := Ideal.ofBits_zero_f32

theorem isReal_z0 : IsReal z0 := ⟨0, by rw [z0_eq, EReal.coe_zero]⟩

/-! ## One aggregation as the scatter-add of scaled gathered rows -/

/-- The column of edge weights broadcast along the feature axis reads, at `(e, f)`, the weight of edge `e`. -/
theorem nrmMK_apply (nrm : FVec Ideal SM1 .f32) (j : SMK.Idx) :
    broadcastInDim SMK ![0, 1] h_bMK nrm j = nrm (ix2 (row j) (0 : Fin 1)) :=
  broadcastInDim_apply _ h_bMK nrm j (ix2 (row j) (0 : Fin 1)) (fun a => match a with
    | ⟨0, _⟩ => by show (j 0).val = if (1700000 : Nat) = 1 then 0 else (j 0).val; rw [if_neg (by decide)]
    | ⟨1, _⟩ => by show 0 = if (1 : Nat) = 1 then 0 else (j 1).val; rw [if_pos rfl])

/-- The host's aggregation is `agg`: into zeros, add at the scatter's target the gathered entry times the edge weight. -/
theorem aggOf_eq (v : SNK.Idx → EReal) (r c : IVec SM 32) (nrm : FVec Ideal SM1 .f32) :
    aggOf v r c nrm = agg sc2 g2 z0 v (wrapIdx r) (colIdx c) (fun e => nrm (ix2 e (0 : Fin 1))) := by
  have h1 : broadcastInDim SNK ![] h_b0NK (constant (F := Ideal) S0 .f32 0x00000000#32) = fun _ => z0 :=
    funext zerosNK_apply
  have h2 : mulf (φ := .f32) (Host.gather g2 v (wrapIdx r)) (broadcastInDim SMK ![0, 1] h_bMK nrm)
      = fun j => v (g2.operandIdx j (wrapIdx r)) * nrm (ix2 (row j) (0 : Fin 1)) := by
    funext j
    rw [mulf_apply, nrmMK_apply]
    rfl
  unfold aggOf agg Host.scatterAdd
  rw [h1, h2]
  rfl

/-! ## The in-degree, counted in integers or in floats -/

/-- The conversion of a word to a float, at the exact values: the word's signed integer as a real number. -/
private theorem ideal_sitofp {w : Nat} (b : BitVec w) :
    FloatOps.sitofp (F := Ideal) .f32 b = (((b.toInt : ℤ) : ℝ) : EReal) := rfl

/-- The float count read at a node: the exact scatter-add of ones into zeros. -/
theorem degF_read (c : IVec SM 32) (i : SN.Idx) :
    degF c i = Ideal.hostScatterAdd sc1 (fun _ => Ideal.ofBits .f32 0x00000000#32) (colIdx c)
      (fun _ => Ideal.ofBits .f32 0x3F800000#32) i := by
  have h0 : broadcastInDim SN ![] h_b0N (constant (F := Ideal) S0 .f32 0x00000000#32)
      = fun _ => Ideal.ofBits .f32 0x00000000#32 :=
    funext fun i => broadcastInDim_apply _ h_b0N _ i ix0 (fun a => a.elim0)
  have h1 : broadcastInDim SM ![] h_b0M (constant (F := Ideal) S0 .f32 0x3F800000#32)
      = fun _ => Ideal.ofBits .f32 0x3F800000#32 :=
    funext fun i => broadcastInDim_apply _ h_b0M _ i ix0 (fun a => a.elim0)
  have h : degF c = Ideal.hostScatterAdd sc1 (broadcastInDim SN ![] h_b0N (constant (F := Ideal) S0 .f32 0x00000000#32))
      (colIdx c) (broadcastInDim SM ![] h_b0M (constant (F := Ideal) S0 .f32 0x3F800000#32)) := rfl
  rw [h, h0, h1]

/-- The integer count read at a node: the word the integer scatter of ones into zeros leaves, as a real number. -/
theorem degI_read (c : IVec SM 32) (i : SN.Idx) :
    degI c i
      = ((((Host.scatter sc1 IntOp.addi (fun _ => 0#32) (colIdx c) (fun _ => 1#32) i).toInt : ℤ) : ℝ) : EReal) := by
  have h0' : broadcastInDim SN ![] h_b0N (constantI S0 32 0#32) = fun _ => 0#32 :=
    funext fun i => broadcastInDim_apply _ h_b0N _ i ix0 (fun a => a.elim0)
  have h1' : broadcastInDim SM ![] h_b0M (constantI S0 32 1#32) = fun _ => 1#32 :=
    funext fun i => broadcastInDim_apply _ h_b0M _ i ix0 (fun a => a.elim0)
  unfold degI
  rw [sitofp_apply, h0', h1', ideal_sitofp]

/-- Both counts of the in-degree of a node are one and the same natural number: the float scatter of ones into zeros,
    and the integer scatter of ones into zeros converted (the number of updates is far below 2³¹). -/
theorem deg_count (c : IVec SM 32) (i : SN.Idx) :
    ∃ n : ℕ, degF c i = ((n : ℝ) : EReal) ∧ degI c i = ((n : ℝ) : EReal) := by
  have hu : SM.numel < 2 ^ 31 := by
    rw [Shape.numel_rank1]
    show (1700000 : Nat) < 2 ^ 31
    norm_num
  exact ⟨_, (degF_read c i).trans (degree_float sc1 (colIdx c) i), (degI_read c i).trans (degree_int sc1 hu (colIdx c) i)⟩

theorem degI_eq_degF (c : IVec SM 32) : degI c = degF c := by
  funext i
  obtain ⟨n, hF, hI⟩ := deg_count c i
  rw [hF, hI]

theorem kerNorm_eq (e : IVec S2E 32) : kerNorm e = refNorm e :=
  congrArg (fun d => normOf (dinvOf d) (srcOf e) (dstOf e)) (degI_eq_degF (dstOf e))

/-- The guarded reciprocal square root read at a node. -/
theorem dinvOf_apply (deg : FVec Ideal SN .f32) (i : SN.Idx) :
    dinvOf deg i = Scalar.select (FloatOps.cmpf (F := Ideal) (φ := .f32) .ogt (deg i) (Ideal.ofBits .f32 0x00000000#32))
      (FloatOps.hostUnary (F := Ideal) (φ := .f32) .rsqrt (deg i)) (Ideal.ofBits .f32 0x00000000#32) := by
  have hz : ∀ x : FVec Ideal S0 .f32, broadcastInDim SN ![] h_b0N x i = x ix0 :=
    fun x => broadcastInDim_apply _ h_b0N x i ix0 (fun a => a.elim0)
  unfold dinvOf
  rw [select_apply, cmpf_apply, hz, hz]
  rfl

/-- The guarded reciprocal square root of a count is a real number. -/
theorem allReal_dinvOf_degF (c : IVec SM 32) : AllReal (dinvOf (degF c)) := by
  intro i
  obtain ⟨n, hF, -⟩ := deg_count c i
  rw [dinvOf_apply, hF]
  exact dinv_isReal n

/-- The edge weights: products of two entries of the reciprocal square roots. -/
theorem allReal_normOf {dinv : FVec Ideal SN .f32} (hd : AllReal dinv) (r c : IVec SM 32) : AllReal (normOf dinv r c) := by
  intro i
  unfold normOf broadcastInDim
  exact isReal_mul (hd _) (hd _)

theorem allReal_refNorm (e : IVec S2E 32) : AllReal (refNorm e) :=
  allReal_normOf (allReal_dinvOf_degF _) _ _

/-! ## Slices and casts of real arrays are real -/

theorem allReal_wOf {off : Fin 3 → Nat} {h : S3KK.Slices off S1KK} {cw : FVec Ideal S3KK .f32} (hcw : AllReal cw) :
    AllReal (wOf off h cw) := by
  intro i
  unfold wOf shapeCast extractStridedSlice
  exact hcw _

theorem allReal_bOf {off : Fin 2 → Nat} {h : S3K.Slices off S1K} {cb : FVec Ideal S3K .f32} (hcb : AllReal cb) :
    AllReal (bOf off h cb) := by
  intro i
  unfold bOf shapeCast extractStridedSlice
  exact hcb _

theorem allReal_rowOf {b : FVec Ideal SK .f32} (hb : AllReal b) : AllReal (rowOf b) := by
  intro i
  unfold rowOf shapeCast
  exact hb _

theorem allReal_rowOfO {b : FVec Ideal SO .f32} (hb : AllReal b) : AllReal (rowOfO b) := by
  intro i
  unfold rowOfO shapeCast
  exact hb _

/-! ## The input projection and one layer -/

theorem kerH0_eq_refH0 (x : FVec Ideal SNK .f32) (W : FVec Ideal SKK .f32) (b : FVec Ideal SK .f32) :
    kerH0 x W b = refH0 x W b := by
  unfold kerH0 refH0
  rw [reluT_eq, addf_mmT_biasRows]

theorem allReal_kerH0 {x : FVec Ideal SNK .f32} {W : FVec Ideal SKK .f32} {b : FVec Ideal SK .f32}
    (hx : AllReal x) (hW : AllReal W) (hb : AllReal b) : AllReal (kerH0 x W b) :=
  allReal_relu isReal_z0 (allReal_dense hx hW (allReal_rowOf hb))

/-- One layer: aggregating the projected rows (reference) is projecting the aggregated rows (kernel program),
    when the features, the weights and the edge weights are real. -/
theorem kerLayer_eq_refLayer (h : FVec Ideal SNK .f32) (W : FVec Ideal SKK .f32) (b : FVec Ideal SK .f32)
    (e : IVec S2E 32) (nrm : FVec Ideal SM1 .f32) (hh : AllReal h) (hW : AllReal W) (hn : AllReal nrm) :
    kerLayer h W b e nrm = refLayer h W b e nrm := by
  have hn' : AllReal (fun e' : Fin 1700000 => nrm (ix2 e' (0 : Fin 1))) := fun e' => hn _
  have key : agg sc2 g2 0 (mm (n := 100000) (k := 128) (o := 128) h W) (wrapIdx (srcOf e)) (colIdx (dstOf e))
        (fun e' : Fin 1700000 => nrm (ix2 e' (0 : Fin 1)))
      = mm (agg sc2 g2 0 h (wrapIdx (srcOf e)) (colIdx (dstOf e)) (fun e' : Fin 1700000 => nrm (ix2 e' (0 : Fin 1)))) W :=
    agg_mm_comm (by norm_num) _ _ h W _ _ _ hh hW hn'
  unfold kerLayer refLayer
  rw [reluT_eq, aggOf_eq, aggOf_eq, mmT_eq]
  refine congrArg (relu (n := 100000) (k := 128) z0) ?_
  funext i
  rw [addf_apply, biasRows_apply]
  unfold dense
  rw [rowOf_apply, z0_eq, key]

theorem allReal_kerLayer {h : FVec Ideal SNK .f32} {W : FVec Ideal SKK .f32} {b : FVec Ideal SK .f32}
    (e : IVec S2E 32) {nrm : FVec Ideal SM1 .f32} (hh : AllReal h) (hW : AllReal W) (hb : AllReal b) (hn : AllReal nrm) :
    AllReal (kerLayer h W b e nrm) := by
  have hn' : AllReal (fun e' : Fin 1700000 => nrm (ix2 e' (0 : Fin 1))) := fun e' => hn _
  unfold kerLayer
  rw [aggOf_eq]
  exact allReal_relu isReal_z0 (allReal_dense (allReal_agg sc2 g2 _ _ isReal_z0 hh hn') hW (allReal_rowOf hb))

/-! ## The two programs -/

/-- On real inputs the kernel program's function is the reference's. -/
theorem kerOut_eq_refOut (x : FVec Ideal SNK .f32) (e : IVec S2E 32) (Win : FVec Ideal SKK .f32) (bin : FVec Ideal SK .f32)
    (cw : FVec Ideal S3KK .f32) (cb : FVec Ideal S3K .f32) (Wout : FVec Ideal SKO .f32) (bout : FVec Ideal SO .f32)
    (hx : AllReal x) (hWin : AllReal Win) (hbin : AllReal bin) (hcw : AllReal cw) (hcb : AllReal cb) (hWout : AllReal Wout) (hbout : AllReal bout) :
    kerOut x e Win bin cw cb Wout bout = refOut x e Win bin cw cb Wout bout := by
  have hn : AllReal (refNorm e) := allReal_refNorm e
  -- the input projection
  have e0 := kerH0_eq_refH0 x Win bin
  have r0 : AllReal (kerH0 x Win bin) := allReal_kerH0 hx hWin hbin
  -- the three layers
  have e1 := kerLayer_eq_refLayer (kerH0 x Win bin) (wOf ![0, 0, 0] h_slW0 cw) (bOf ![0, 0] h_slB0 cb) e (refNorm e)
    r0 (allReal_wOf hcw) hn
  have r1 : AllReal (kerLayer (kerH0 x Win bin) (wOf ![0, 0, 0] h_slW0 cw) (bOf ![0, 0] h_slB0 cb) e (refNorm e)) :=
    allReal_kerLayer e r0 (allReal_wOf hcw) (allReal_bOf hcb) hn
  have e2 := kerLayer_eq_refLayer _ (wOf ![1, 0, 0] h_slW1 cw) (bOf ![1, 0] h_slB1 cb) e (refNorm e)
    r1 (allReal_wOf hcw) hn
  have r2 := allReal_kerLayer (b := bOf ![1, 0] h_slB1 cb) e r1 (allReal_wOf (h := h_slW1) hcw) (allReal_bOf hcb) hn
  have e3 := kerLayer_eq_refLayer _ (wOf ![2, 0, 0] h_slW2 cw) (bOf ![2, 0] h_slB2 cb) e (refNorm e)
    r2 (allReal_wOf hcw) hn
  -- the output projection
  unfold kerOut refOut
  rw [kerNorm_eq, addf_mmO_biasRowsO, e3, e2, e1, e0]

end Cert.Gcn

end
-- ==== Proof.FiniteInputs.lean ====
/-
  Finite inputs. The precondition computes, for each of the seven arrays of floating-point inputs, the conjunction over
  all entries `x` of the comparison `|x| < +∞`, and states that the conjunction of the seven results is true. Over the
  extended reals `|x| = max x (-x)`, and `max x (-x) < ⊤` rules out both `x = ⊤` and `x = ⊥`, so every entry is a real
  number.
-/
import proofs.«131948_j10531259810641_2_alg».proof.Proof.Spec
import proofs.«131948_j10531259810641_2_alg».proof.Pre_finite_inputs
import Idealize.ShloMosaic.Lib.ReduceAll
import Idealize.ShloMosaic.PureOps.Ideal.Laws

noncomputable section

open scoped BigOperators

namespace Cert.Gcn

open Idealize.ShloMosaic Idealize.ShloMosaic.ValueIdx

/-- The word `0x7F800000` (sign 0, exponent all ones, fraction 0) denotes `+∞`. -/
theorem ofBits_posInf_f32 : Ideal.ofBits .f32 0x7F800000#32 = (⊤ : EReal) := by
  simp [Ideal.ofBits, Ideal.ieee]

/-- An extended real whose absolute value `max x (-x)` is strictly below `⊤` is a real number. -/
theorem isReal_of_abs_lt_top (x : EReal) (h : max x (-x) < ⊤) : IsReal x := by
  induction x using EReal.rec with
  | bot => simp at h
  | top => simp at h
  | coe r => exact ⟨r, rfl⟩

/-- One array: if the conjunction over all entries of `|x| < +∞` is true, every entry is a real number. -/
theorem allReal_of_reduce {s : Shape} {axes : List (Fin s.rank)} (x : FVec Ideal s .f32)
    (hb : Cert.Pre_finite_inputs.S_.BroadcastsInDim s (![] : Fin 0 → Fin s.rank))
    (hred : s.ReducesTo axes Cert.Pre_finite_inputs.S_) (hpos : 0 < Cert.Pre_finite_inputs.S_.numel)
    (h : Host.reduce IntOp.andi
          (cmpf .olt (Host.absf x)
            (broadcastInDim s ![] hb (constant Cert.Pre_finite_inputs.S_ .f32 0x7F800000#32)))
          (constantI Cert.Pre_finite_inputs.S_ 1 1#1) hred hpos ix0 = 1#1) :
    AllReal x := by
  intro i
  -- the scalar shape has exactly one index, so the conjunction ranges over every entry
  haveI : Subsingleton Cert.Pre_finite_inputs.S_.Idx := ⟨fun a b => funext fun d => d.elim0⟩
  have hi := Host.reduce_andi_all _ _ hred hpos ix0 h i
  -- at the entry, the comparison is that of `max (x i) (-(x i))` with the denotation of the word
  have hi' : Ideal.cmp .olt (max (x i) (-(x i))) (Ideal.ofBits .f32 0x7F800000#32) = 1#1 := hi
  rw [ofBits_posInf_f32] at hi'
  refine isReal_of_abs_lt_top (x i) ?_
  by_contra hlt
  simp [Ideal.cmp, hlt] at hi'

/-- The precondition at the extended reals: if the conjunction of the seven "all entries have `|x| < +∞`" bits is
    true, then every entry of every floating-point input is a real number. -/
theorem allReal_of_pre [Cert.Pre_finite_inputs.Facts]
    (a0 : FVec Ideal Cert.Pre_finite_inputs.S100000x128 .f32) (a1 : IVec Cert.Pre_finite_inputs.S2x1600000 32)
    (a2 : FVec Ideal Cert.Pre_finite_inputs.S128x128 .f32) (a3 : FVec Ideal Cert.Pre_finite_inputs.S128 .f32)
    (a4 : FVec Ideal Cert.Pre_finite_inputs.S3x128x128 .f32) (a5 : FVec Ideal Cert.Pre_finite_inputs.S3x128 .f32)
    (a6 : FVec Ideal Cert.Pre_finite_inputs.S128x64 .f32) (a7 : FVec Ideal Cert.Pre_finite_inputs.S64 .f32)
    (h : Cert.Pre_finite_inputs.fn (F := Ideal) a0 a1 a2 a3 a4 a5 a6 a7 = fun _ => 1#1) :
    AllReal a0 ∧ AllReal a2 ∧ AllReal a3 ∧ AllReal a4 ∧ AllReal a5 ∧ AllReal a6 ∧ AllReal a7 := by
  have h0 := congrFun h ValueIdx.ix0
  dsimp only [Cert.Pre_finite_inputs.fn, Cert.Pre_finite_inputs.fn_part1, andi] at h0
  -- the result is (((((b0 ∧ b2) ∧ b3) ∧ b4) ∧ b5) ∧ b6) ∧ b7, one bit per float input
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨r0, r2⟩ := IntOp.andi_eq_one.1 h0
  exact ⟨allReal_of_reduce a0 _ _ _ r0, allReal_of_reduce a2 _ _ _ r2, allReal_of_reduce a3 _ _ _ r3,
    allReal_of_reduce a4 _ _ _ r4, allReal_of_reduce a5 _ _ _ r5, allReal_of_reduce a6 _ _ _ r6,
    allReal_of_reduce a7 _ _ _ r7⟩

end Cert.Gcn

end
-- ==== Proof.lean ====
/-
  The certificate. Both programs compute three graph-convolution layers between an input projection and an output
  head, over the same edge list with self-loops and the same symmetric normalisation weights. The reference projects a
  layer's features (`h·W`) and then aggregates them over the edges; the kernel program aggregates first and projects
  inside a matrix-product region. On real inputs — the precondition — every intermediate entry is a real number, and
  there aggregation (a sum over the edges into each node, each term scaled by its edge weight) commutes with the
  projection (a sum over the feature axis): sums and products of reals commute and distribute. The in-degrees are
  counted in integers by one program and in floats by the other; both counts are the number of edges into a node.
  The frames are the programs' runs with the results forgotten; the idealization rewrote nothing.
-/
import proofs.«131948_j10531259810641_2_alg».proof.Defs
import proofs.«131948_j10531259810641_2_alg».proof.Proof.Gen.Kernel
import proofs.«131948_j10531259810641_2_alg».proof.Proof.Gen.Kernel.Frame
import proofs.«131948_j10531259810641_2_alg».proof.Proof.Gen.KernelIdeal
import proofs.«131948_j10531259810641_2_alg».proof.Proof.Gen.KernelIdeal.Frame
import proofs.«131948_j10531259810641_2_alg».proof.Proof.Gen.ReferenceIdeal
import proofs.«131948_j10531259810641_2_alg».proof.Proof.Gen.Pre_finite_inputs
import proofs.«131948_j10531259810641_2_alg».proof.Proof.KernelRun
import proofs.«131948_j10531259810641_2_alg».proof.Proof.KernelChain
import proofs.«131948_j10531259810641_2_alg».proof.Proof.RefValue
import proofs.«131948_j10531259810641_2_alg».proof.Proof.Equal
import proofs.«131948_j10531259810641_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, both programs end with the same result: the kernel program's is `kerOut` of
    its arguments, the reference's `refOut` of the same arrays, and the two functions agree on real inputs. -/
theorem algebraic : Cert.algebraic_KernelIdeal_ReferenceIdeal := by
  intro m ρ m' ρ' hpre hagree
  refine ⟨fun c => Cert.Gcn.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.w12_v92 m ρ c), (h c).2⟩)
      (Cert.KernelIdeal.Result.run_result (F := Ideal) m ρ)
  · refine (θ_run Cert.ReferenceIdeal.defs _ _).mono (fun r h c => ⟨(h c).1.trans ?_, (h c).2⟩)
      (Cert.Gcn.run_refOut m' ρ')
    obtain ⟨e0, e1, e2, e3, e4, e5, e6, e7⟩ := hagree c
    rw [e0, e1, e2, e3, e4, e5, e6, e7]
    obtain ⟨r0, r2, r3, r4, r5, r6, r7⟩ := Cert.Gcn.allReal_of_pre _ _ _ _ _ _ _ _ (hpre c)
    exact (Cert.Gcn.kerOut_eq_refOut _ _ _ _ _ _ _ _ r0 r2 r3 r4 r5 r6 r7).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
